-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg30 : FVec F S1 .f32) (main_v133 : IVec S_ 1) (main_v136 : IVec S10x1 1) : IVec S_ 1 :=
  let main_c_53 : IVec S_ 1 := constantI S_ 1 1#1
  let main_v137 : IVec S_ 1 := (fun x v => Host.reduce IntOp.andi x v reducesTo_S10x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  main_v143

def fn_part7 {F : FTy → Type} [FloatOps F] (main_arg27 : FVec F S64x10 .f32) (main_arg28 : FVec F S10 .f32) (main_arg29 : FVec F S10x1 .f32) (main_arg30 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x10 .f32 := Host.absf main_arg27
  let main_cst_48 : FVec F S_ .f32 := constant S_ .f32 0x7F800000#32
  let main_v125 : FVec F S64x10 .f32 := broadcastInDim S64x10 ![] bcast_S_S64x10 main_cst_48
  let main_v126 : IVec S64x10 1 := cmpf .olt main_v124 main_v125
  let main_c_49 : IVec S_ 1 := constantI S_ 1 1#1
  let main_v127 : IVec S_ 1 := (fun x v => Host.reduce IntOp.andi x v reducesTo_S64x10_S_d0_1 h_S_) main_v126 main_c_49
  let main_v128 : IVec S_ 1 := andi main_v123 main_v127
  let main_v129 : FVec F S10 .f32 := Host.absf main_arg28
  let main_cst_50 : FVec F S_ .f32 := constant S_ .f32 0x7F800000#32
  let main_v130 : FVec F S10 .f32 := broadcastInDim S10 ![] bcast_S_S10 main_cst_50
  let main_v131 : IVec S10 1 := cmpf .olt main_v129 main_v130
  let main_c_51 : IVec S_ 1 := constantI S_ 1 1#1
  let main_v132 : IVec S_ 1 := (fun x v => Host.reduce IntOp.andi x v reducesTo_S10_S_d0 h_S_) main_v131 main_c_51
  let main_v133 : IVec S_ 1 := andi main_v128 main_v132
  let main_v134 : FVec F S10x1 .f32 := Host.absf main_arg29
  let main_cst_52 : FVec F S_ .f32 := constant S_ .f32 0x7F800000#32
  let main_v135 : FVec F S10x1 .f32 := broadcastInDim S10x1 ![] bcast_S_S10x1 main_cst_52
  let main_v136 : IVec S10x1 1 := cmpf .olt main_v134 main_v135
  fn_part8 (F := F) main_arg30 main_v133 main_v136

def fn_part6 {F : FTy → Type} [FloatOps F] (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg23
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg27 main_arg28 main_arg29 main_arg30 main_v118 main_v119

def fn_part5 {F : FTy → Type} [FloatOps F] (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x10 .f32) (main_arg28 : FVec F S10 .f32) (main_arg29 : FVec F S10x1 .f32) (main_arg30 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S4000x64 : Shape := ⟨2, ![4000, 64]⟩
abbrev S256x64 : Shape := ⟨2, ![256, 64]⟩
abbrev S100000x1 : Shape := ⟨2, ![100000, 1]⟩
abbrev S256x1 : Shape := ⟨2, ![256, 1]⟩
abbrev S256x10 : Shape := ⟨2, ![256, 10]⟩
abbrev S1x10 : Shape := ⟨2, ![1, 10]⟩
abbrev S1x1 : Shape := ⟨2, ![1, 1]⟩

abbrev nBuf : Space → Nat
  | .hbm => 112
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S64x64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S64x10, .f32⟩
  | .hbm, ⟨28, _⟩ => ⟨S10, .f32⟩
  | .hbm, ⟨29, _⟩ => ⟨S10x1, .f32⟩
  | .hbm, ⟨30, _⟩ => ⟨S1, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S100000x64, .f32⟩
  | .hbm, ⟨89, _⟩ => ⟨S_, .f32⟩
  | .hbm, ⟨90, _⟩ => ⟨S256x64, .f32⟩
  | .hbm, ⟨91, _⟩ => ⟨S100000x1, .i32⟩
  | .hbm, ⟨92, _⟩ => ⟨S256x64, .f32⟩
  | .hbm, ⟨93, _⟩ => ⟨S_, .f32⟩
  | .hbm, ⟨94, _⟩ => ⟨S100000x1, .f32⟩
  | .hbm, ⟨95, _⟩ => ⟨S_, .f32⟩
  | .hbm, ⟨96, _⟩ => ⟨S256x1, .f32⟩
  | .hbm, ⟨97, _⟩ => ⟨S100000x1, .i32⟩
  | .hbm, ⟨98, _⟩ => ⟨S256x1, .f32⟩
  | .hbm, ⟨99, _⟩ => ⟨S_, .f32⟩
  | .hbm, ⟨100, _⟩ => ⟨S256x1, .f32⟩
  | .hbm, ⟨101, _⟩ => ⟨S256x1, .f32⟩
  | .hbm, ⟨102, _⟩ => ⟨S256x64, .f32⟩
  | .hbm, ⟨103, _⟩ => ⟨S256x64, .f32⟩
  | .hbm, ⟨104, _⟩ => ⟨S256x10, .f32⟩
  | .hbm, ⟨105, _⟩ => ⟨S1x10, .f32⟩
  | .hbm, ⟨106, _⟩ => ⟨S256x10, .f32⟩
  | .hbm, ⟨107, _⟩ => ⟨S256x10, .f32⟩
  | .hbm, ⟨108, _⟩ => ⟨S256x1, .f32⟩
  | .hbm, ⟨109, _⟩ => ⟨S1x1, .f32⟩
  | .hbm, ⟨110, _⟩ => ⟨S256x1, .f32⟩
  | .hbm, ⟨111, _⟩ => ⟨S256x1, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_1 : Ref sig .tc := ⟨.hbm, 53, rfl⟩
abbrev main_v19 : Ref sig .tc := ⟨.hbm, 54, rfl⟩
abbrev main_v20 : Ref sig .tc := ⟨.hbm, 55, rfl⟩
abbrev main_c_2 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_4 : Ref sig .tc := ⟨.hbm, 71, rfl⟩
abbrev main_v34 : Ref sig .tc := ⟨.hbm, 72, rfl⟩
abbrev main_v35 : Ref sig .tc := ⟨.hbm, 73, rfl⟩
abbrev main_c_5 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_6 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_7 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_8 : Ref sig .tc := ⟨.hbm, 93, rfl⟩
abbrev main_v52 : Ref sig .tc := ⟨.hbm, 94, rfl⟩
abbrev main_cst_9 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_10 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  scatter_S256x64_S100000x1_S100000x64_1_0_0_1_wf : ScatterDims.WF S256x64 S100000x1 S100000x64 [1] [0] [0] 1
  scatter_S256x1_S100000x1_S100000x1_1_0_0_1_wf : ScatterDims.WF S256x1 S100000x1 S100000x1 [1] [0] [0] 1
  dot_S256x64_S64x10_S256x10_1_0_0_1_n_n_wf : DotDims.WF S256x64 S64x10 S256x10 [1] [0] [0] [1] [] []
  dot_S256x10_S10x1_S256x1_1_0_0_1_n_n_wf : DotDims.WF S256x10 S10x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S100000x64.size a
  hwx0_10 : ∀ i : grid0.Coords, EltTy.bits .f32 = 32 ∨ (Rect.block (s := S100000x64) S4000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x64.size a ≤ S100000x64.size a
  hwx1_10 : ∀ i : grid1.Coords, EltTy.bits .f32 = 32 ∨ (Rect.block (s := S100000x64) S4000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x64.size a ≤ S100000x64.size a
  hwx2_10 : ∀ i : grid2.Coords, EltTy.bits .f32 = 32 ∨ (Rect.block (s := S100000x64) S4000x64.size (cc2_transform_10 i) (hinb2_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf
def dot_S256x10_S10x1_S256x1_1_0_0_1_n_n : DotDims S256x10 S10x1 S256x1 where
  lhsContracting := [1]
  rhsContracting := [0]
  lhsNonContracting := [0]
  rhsNonContracting := [1]
  lhsBatch := []
  rhsBatch := []
  wf := dot_S256x10_S10x1_S256x1_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v18) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S4000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v33) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg21) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg23) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v47) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v48) S4000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S256x64 : Shape := ⟨2, ![256, 64]⟩
abbrev S100000x1 : Shape := ⟨2, ![100000, 1]⟩
abbrev S256x1 : Shape := ⟨2, ![256, 1]⟩
abbrev S256x10 : Shape := ⟨2, ![256, 10]⟩
abbrev S1x10 : Shape := ⟨2, ![1, 10]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x64, .f32⟩
  | 26 => ⟨S64, .f32⟩
  | 27 => ⟨S64x10, .f32⟩
  | 28 => ⟨S10, .f32⟩
  | 29 => ⟨S10x1, .f32⟩
  | 30 => ⟨S1, .f32⟩
  | 31 => ⟨S1x1600000, .i32⟩
  | 32 => ⟨S1600000, .i32⟩
  | 33 => ⟨S1x1600000, .i32⟩
  | 34 => ⟨S1600000, .i32⟩
  | 35 => ⟨S100000x64, .f32⟩
  | 36 => ⟨S1x64, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S_, .f32⟩
  | 84 => ⟨S100000x64, .f32⟩
  | 85 => ⟨S1600000x1, .i32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S256x64, .f32⟩
  | 14 => ⟨S100000x1, .i32⟩
  | 15 => ⟨S256x64, .f32⟩
  | 16 => ⟨S_, .f32⟩
  | 17 => ⟨S100000x1, .f32⟩
  | 18 => ⟨S_, .f32⟩
  | 19 => ⟨S256x1, .f32⟩
  | 20 => ⟨S100000x1, .i32⟩
  | 21 => ⟨S256x1, .f32⟩
  | 22 => ⟨S_, .f32⟩
  | 23 => ⟨S256x1, .f32⟩
  | 24 => ⟨S256x1, .f32⟩
  | 25 => ⟨S256x64, .f32⟩
  | 26 => ⟨S256x64, .f32⟩
  | 27 => ⟨S256x10, .f32⟩
  | 28 => ⟨S1x10, .f32⟩
  | 29 => ⟨S256x10, .f32⟩
  | 30 => ⟨S256x10, .f32⟩
  | 31 => ⟨S256x1, .f32⟩
  | 32 => ⟨S1x1, .f32⟩
  | 33 => ⟨S256x1, .f32⟩
  | 34 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_c : Ref sig .tc := ⟨.hbm, 39, rfl⟩
abbrev main_v8 : Ref sig .tc := ⟨.hbm, 40, rfl⟩
abbrev main_v9 : Ref sig .tc := ⟨.hbm, 41, rfl⟩
abbrev main_c_0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_call0_cst : Ref sig .tc := ⟨.hbm, 67, rfl⟩
abbrev main_call0_v0 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_1 : Ref sig .tc := ⟨.hbm, 74, rfl⟩
abbrev main_v38 : Ref sig .tc := ⟨.hbm, 75, rfl⟩
abbrev main_v39 : Ref sig .tc := ⟨.hbm, 76, rfl⟩
abbrev main_c_2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_3 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call1_cst : Ref sig .tc := ⟨.hbm, 102, rfl⟩
abbrev main_call1_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_4 : Ref sig .tc := ⟨.hbm, 109, rfl⟩
abbrev main_v68 : Ref sig .tc := ⟨.hbm, 110, rfl⟩
abbrev main_v69 : Ref sig .tc := ⟨.hbm, 111, rfl⟩
abbrev main_c_5 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_6 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call2_cst : Ref sig .tc := ⟨.hbm, 137, rfl⟩
abbrev main_call2_v0 : Ref sig .tc := ⟨.hbm, 138, rfl⟩
abbrev main_v93 : Ref sig .tc := ⟨.hbm, 139, rfl⟩
abbrev main_cst_7 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_8 : Ref sig .tc := ⟨.hbm, 144, rfl⟩
abbrev main_v97 : Ref sig .tc := ⟨.hbm, 145, rfl⟩
abbrev main_cst_9 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_10 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  scatter_S256x1_S100000x1_S100000x1_1_0_0_1_wf : ScatterDims.WF S256x1 S100000x1 S100000x1 [1] [0] [0] 1
  dot_S256x64_S64x10_S256x10_1_0_0_1_n_n_wf : DotDims.WF S256x64 S64x10 S256x10 [1] [0] [0] [1] [] []
  dot_S256x10_S10x1_S256x1_1_0_0_1_n_n_wf : DotDims.WF S256x10 S10x1 S256x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf
def dot_S256x10_S10x1_S256x1_1_0_0_1_n_n : DotDims S256x10 S10x1 S256x1 where
  lhsContracting := [1]
  rhsContracting := [0]
  lhsNonContracting := [0]
  rhsNonContracting := [1]
  lhsBatch := []
  rhsBatch := []
  wf := dot_S256x10_S10x1_S256x1_1_0_0_1_n_n_wf

class Facts : Prop extends Facts₀ where

variable [Facts]
-- ==== Proof.KernelRun.lean ====
/-
  The idealized kernel program's run, with every buffer named.

  @main is seven segments: a stretch of host operations, the first layer's kernel region, a stretch, the second
  layer's region, a stretch, the third layer's region, and the closing stretch (pooling and the two dense layers).
  The buffer contents at each segment boundary are a fold from the launch memory: a stretch applies its operations'
  pure functions, a region replaces its output array by what its grid points wrote back and leaves every other
  buffer alone.  `W7` is the last stage of that fold.  Every weakly fair execution terminates without a fault, and
  in its final memory EVERY buffer outside the kernels' scratch holds `W7`'s contents — the result buffer
  included, which is what the value claim reads.
-/
import proofs.«150598_j2181843387146_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any launch memory: it terminates, nothing faults, and every buffer that is not a
    kernel's scratch ends at the last stage of the boundary fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.Layer.lean ====
/-
  One layer of the network, as a function of whole arrays.

  With `h` the node features (100000 rows of 64), `s` the features summed over incoming edges, four 64×64 weight
  matrices and four bias rows, the layer's value at row `r` and column `q` is

      max ( (h·Wa + ba) + (s·Wc + bc) + (h·Wb + bb) * (h·Wd + bd) , 0 )   at (r, q),

  every product `h·W` at (r, q) being the sum over `k` of `h (r, k) * W (k, q)`.  Only row `r` of `h` and of `s`
  enters: that is why a block of rows of the result is the same function of the matching block of rows of `h` and
  `s`, whatever the block.  All values are extended reals and the grouping of the sums and the product is the one
  written here; nothing is rearranged, so no finiteness is needed anywhere.
-/
import Idealize.ShloMosaic.PureOps.Ideal
import Idealize.ShloMosaic.Lib.ValueIdx

noncomputable section

namespace Cert.Layer

open Idealize.ShloMosaic Idealize.ShloMosaic.ValueIdx

/-- Row `r` of `x` against column `q` of `w`. -/
def rowDot {n : Nat} (x : (⟨2, ![n, 64]⟩ : Shape).Idx → EReal) (w : (⟨2, ![64, 64]⟩ : Shape).Idx → EReal)
    (r : Fin n) (q : Fin 64) : EReal :=
  ∑ k : Fin 64, x (ix2 r k) * w (ix2 k q)

/-- The layer's value at row `r`, column `q`, from row `r` of `h` and of `s`. -/
def entry {n : Nat} (h s : (⟨2, ![n, 64]⟩ : Shape).Idx → EReal)
    (wa wc wb wd : (⟨2, ![64, 64]⟩ : Shape).Idx → EReal) (ba bc bb bd : Fin 64 → EReal)
    (r : Fin n) (q : Fin 64) : EReal :=
  max (((rowDot h wa r q + ba q) + (rowDot s wc r q + bc q))
        + (rowDot h wb r q + bb q) * (rowDot h wd r q + bd q)) 0

/-- The layer as a whole array. -/
def out {n : Nat} (h s : (⟨2, ![n, 64]⟩ : Shape).Idx → EReal)
    (wa wc wb wd : (⟨2, ![64, 64]⟩ : Shape).Idx → EReal) (ba bc bb bd : Fin 64 → EReal) :
    (⟨2, ![n, 64]⟩ : Shape).Idx → EReal :=
  fun i => entry h s wa wc wb wd ba bc bb bd (i 0) (i 1)

theorem out_ix2 {n : Nat} (h s : (⟨2, ![n, 64]⟩ : Shape).Idx → EReal)
    (wa wc wb wd : (⟨2, ![64, 64]⟩ : Shape).Idx → EReal) (ba bc bb bd : Fin 64 → EReal) (r : Fin n) (q : Fin 64) :
    out h s wa wc wb wd ba bc bb bd (ix2 r q) = entry h s wa wc wb wd ba bc bb bd r q := rfl

/-- A block of `R` rows starting at row `o`: the layer of the block is the block of the layer. -/
theorem entry_rows {n R : Nat} (h s : (⟨2, ![n, 64]⟩ : Shape).Idx → EReal)
    (hb sb : (⟨2, ![R, 64]⟩ : Shape).Idx → EReal)
    (wa wc wb wd : (⟨2, ![64, 64]⟩ : Shape).Idx → EReal) (ba bc bb bd : Fin 64 → EReal)
    (r : Fin n) (p : Fin R)
    (hh : ∀ k : Fin 64, hb (ix2 p k) = h (ix2 r k)) (hs : ∀ k : Fin 64, sb (ix2 p k) = s (ix2 r k)) (q : Fin 64) :
    entry hb sb wa wc wb wd ba bc bb bd p q = entry h s wa wc wb wd ba bc bb bd r q := by
  unfold entry rowDot
  simp only [hh, hs]

end Cert.Layer

end
-- ==== Proof.Payload.lean ====
/-
  The kernel body's stored value, entry by entry.

  The body loads a block of 4000 rows of `h` and of `s`, the four 64×64 weight matrices and four 1×64 bias rows,
  forms four matrix products into zero accumulators, adds each bias row to every row, and stores
  `max ((a + c) + b * d, 0)`.  At the exact extended-real reading a change of float format is the identity and a
  product into a zero accumulator is the plain sum over the contracted axis, so the stored value at row `p`,
  column `q` is `Layer.entry` of the loaded blocks at (p, q), with each bias read at row 0 of its 1×64 block.
  The three layers' bodies are the same text, so one lemma per layer follows from one statement over the
  operations.
-/
import proofs.«150598_j2181843387146_1_alg».proof.KernelIdeal
import proofs.«150598_j2181843387146_1_alg».proof.Proof.Gen.KernelIdeal.Skeleton
import proofs.«150598_j2181843387146_1_alg».proof.Proof.Layer
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The products' dimension record: rows × contraction times contraction × columns. -/
abbrev D : DotDims S4000x64 S64x64 S4000x64 := dot_S4000x64_S64x64_S4000x64_1_0_0_1_n_n

theorem lhs_row (i : S4000x64.Idx) (z : D.contr.Idx) : (D.lhsIdx i z 0).val = (i 0).val := by
  unfold DotDims.lhsIdx
  rw [dif_neg (show ¬(0 : Fin S4000x64.rank) ∈ D.lhsBatch by decide),
    dif_pos (show (0 : Fin S4000x64.rank) ∈ D.lhsNonContracting by decide)]
  rfl
theorem lhs_contr (i : S4000x64.Idx) (z : D.contr.Idx) : (D.lhsIdx i z 1).val = (z ⟨0, by decide⟩).val :=
  D.lhsIdx_val_of_single rfl i z
theorem rhs_contr (i : S4000x64.Idx) (z : D.contr.Idx) : (D.rhsIdx i z 0).val = (z ⟨0, by decide⟩).val :=
  D.rhsIdx_val_of_single rfl i z
theorem rhs_col (i : S4000x64.Idx) (z : D.contr.Idx) : (D.rhsIdx i z 1).val = (i 1).val := by
  unfold DotDims.rhsIdx
  rw [dif_neg (show ¬(1 : Fin S64x64.rank) ∈ D.rhsBatch by decide),
    dif_pos (show (1 : Fin S64x64.rank) ∈ D.rhsNonContracting by decide)]
  rfl

/-- A block's product with a weight matrix, into the zero accumulator, at (p, q): row p against column q. -/
theorem product_apply {φ₁ φ₂ : FTy} (x : FVec Ideal S4000x64 φ₁) (w : FVec Ideal S64x64 φ₂) (p : Fin 4000) (q : Fin 64) :
    matmul (F := Ideal) D none x w (constant (F := Ideal) S4000x64 .f32 0x00000000#32) (ix2 p q)
      = ∑ k : Fin 64, x (ix2 p k) * w (ix2 k q) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 64 rfl rfl).symm k) = ix2 k q := funext fun a => Fin.ext (by
    match a with
    | ⟨0, _⟩ => exact (rhs_contr _ _).trans hk
    | ⟨1, _⟩ => exact rhs_col _ _)
  rw [el, er]

/-- A 1×64 bias row spread over 4000 rows, at (p, q): the row's entry q. -/
theorem bias_apply (b : S1x64.Idx → EReal) (h2 : S1x64.Broadcasts S4000x64)
    (p : Fin 4000) (q : Fin 64) :
    broadcastTo S4000x64 b h2 (ix2 p q) = b (ix2 0 q) := by
  exact broadcastTo_apply b h2 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- The first layer's stored value at (p, q). -/
theorem stored0_apply (x0 x1 : Vec Ideal S4000x64 .f32) (x2 x4 x6 x8 : Vec Ideal S64x64 .f32)
    (x3 x5 x7 x9 : Vec Ideal S1x64 .f32) (p : Fin 4000) (q : Fin 64) :
    k0_pay1 (F := Ideal) (k0_pay3 x0 x1 x2 x4 x3 x5) (k0_pay4 x0 x6 x8 x7 x9) (ix2 p q)
      = Cert.Layer.entry x0 x1 x2 x4 x6 x8 (fun q => x3 (ix2 0 q)) (fun q => x5 (ix2 0 q))
          (fun q => x7 (ix2 0 q)) (fun q => x9 (ix2 0 q)) p q := by
  unfold k0_pay1 k0_pay3 k0_pay4 k0_pay2 Cert.Layer.entry Cert.Layer.rowDot
  simp only [maximumf_apply, addf_apply, mulf_apply, broadcast_apply, product_apply, shapeCast_self, bias_apply, truncf_apply]
  show max _ (Ideal.ofBits .f32 0x00000000#32) = _
  rw [Ideal.ofBits_zero_f32]

/-- The second layer's stored value at (p, q). -/
theorem stored1_apply (x0 x1 : Vec Ideal S4000x64 .f32) (x2 x4 x6 x8 : Vec Ideal S64x64 .f32)
    (x3 x5 x7 x9 : Vec Ideal S1x64 .f32) (p : Fin 4000) (q : Fin 64) :
    k1_pay1 (F := Ideal) (k1_pay3 x0 x6 x7) (k1_pay4 x0 x8 x9) (k1_pay5 x0 x1 x2 x4 x3 x5) (ix2 p q)
      = Cert.Layer.entry x0 x1 x2 x4 x6 x8 (fun q => x3 (ix2 0 q)) (fun q => x5 (ix2 0 q))
          (fun q => x7 (ix2 0 q)) (fun q => x9 (ix2 0 q)) p q := by
  unfold k1_pay1 k1_pay3 k1_pay4 k1_pay5 k1_pay2 Cert.Layer.entry Cert.Layer.rowDot
  simp only [maximumf_apply, addf_apply, mulf_apply, broadcast_apply, product_apply, shapeCast_self, bias_apply, truncf_apply]
  show max _ (Ideal.ofBits .f32 0x00000000#32) = _
  rw [Ideal.ofBits_zero_f32]

/-- The third layer's stored value at (p, q). -/
theorem stored2_apply (x0 x1 : Vec Ideal S4000x64 .f32) (x2 x4 x6 x8 : Vec Ideal S64x64 .f32)
    (x3 x5 x7 x9 : Vec Ideal S1x64 .f32) (p : Fin 4000) (q : Fin 64) :
    k2_pay1 (F := Ideal) (k2_pay3 x0 x6 x7) (k2_pay4 x0 x8 x9) (k2_pay5 x0 x1 x2 x4 x3 x5) (ix2 p q)
      = Cert.Layer.entry x0 x1 x2 x4 x6 x8 (fun q => x3 (ix2 0 q)) (fun q => x5 (ix2 0 q))
          (fun q => x7 (ix2 0 q)) (fun q => x9 (ix2 0 q)) p q := by
  unfold k2_pay1 k2_pay3 k2_pay4 k2_pay5 k2_pay2 Cert.Layer.entry Cert.Layer.rowDot
  simp only [maximumf_apply, addf_apply, mulf_apply, broadcast_apply, product_apply, shapeCast_self, bias_apply, truncf_apply]
  show max _ (Ideal.ofBits .f32 0x00000000#32) = _
  rw [Ideal.ofBits_zero_f32]

end Cert.KernelIdeal.Body

end
-- ==== Proof.Region0.lean ====
/-
  Layer 1's kernel region: from blocks to the whole array.

  The grid has 25 points; point `t` reads rows 4000·t … 4000·t + 3999 of `h` and of `s`, the whole of each weight
  matrix and bias row, and writes back the same rows of the output.  What it writes back is, entry by entry,
  `Layer.entry` of the rows it read, which is `Layer.out` of the whole arrays at those rows: an entry of the layer
  depends on one row of `h` and `s` only.  The 25 blocks of 4000 rows tile the 100000 rows (row `r` lies in block
  `r / 4000`), so after the region the output array is `Layer.out` of the arrays as the region found them.
-/
import proofs.«150598_j2181843387146_1_alg».proof.Proof.Gen.KernelIdeal.Frame
import proofs.«150598_j2181843387146_1_alg».proof.Proof.Payload

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The layer of the arrays as the region finds them: window 0 is `h`, window 1 is `s`, windows 2, 4, 6, 8 the
    weight matrices and windows 3, 5, 7, 9 the bias rows (each a 1×64 array, read at its row 0). -/
def whole (c : Dev nD) : S100000x64.Idx → EReal :=
  Cert.Layer.out (V c main_arg0) (V c main_v13) (V c main_arg5) (V c main_arg3) (V c main_arg7) (V c main_arg9)
    (fun q => V c main_v14 (ix2 0 q)) (fun q => V c main_v15 (ix2 0 q)) (fun q => V c main_v16 (ix2 0 q)) (fun q => V c main_v17 (ix2 0 q))

/-- The printed index maps over the 25 grid points: the row-blocked windows sit at block row `t`, every other
    block index is 0. -/
theorem index_maps : ∀ t : Fin cfg0.N, win0_10.index t (0 : Fin 2) = t.val
    ∧ win0_10.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- The stored value of a point at row `p`, column `q` of its block, against the layer of whole arrays at row `r`,
    when the rows read are row `r` of `h` and of `s` and the weights and biases are the whole ones. -/
theorem point_entry (x0 x1 : Vec Ideal S4000x64 .f32) (x2 x4 x6 x8 : Vec Ideal S64x64 .f32) (x3 x5 x7 x9 : Vec Ideal S1x64 .f32)
    (h s : S100000x64.Idx → EReal) (wa wc wb wd : S64x64.Idx → EReal) (ba bc bb bd : S1x64.Idx → EReal)
    (p : Fin 4000) (q : Fin 64) (r : Fin 100000)
    (hh : ∀ kk : Fin 64, x0 (ix2 p kk) = h (ix2 r kk)) (hs : ∀ kk : Fin 64, x1 (ix2 p kk) = s (ix2 r kk))
    (h2 : ∀ z, x2 z = wa z) (h4 : ∀ z, x4 z = wc z) (h6 : ∀ z, x6 z = wb z) (h8 : ∀ z, x8 z = wd z)
    (h3 : ∀ z, x3 z = ba z) (h5 : ∀ z, x5 z = bc z) (h7 : ∀ z, x7 z = bb z) (h9 : ∀ z, x9 z = bd z) :
    k0_pay1 (F := Ideal) (k0_pay3 x0 x1 x2 x4 x3 x5) (k0_pay4 x0 x6 x8 x7 x9) (ix2 p q)
      = Cert.Layer.out h s wa wc wb wd (fun q => ba (ix2 0 q)) (fun q => bc (ix2 0 q)) (fun q => bb (ix2 0 q)) (fun q => bd (ix2 0 q)) (ix2 r q) := by
  obtain rfl : x2 = wa := funext h2
  obtain rfl : x4 = wc := funext h4
  obtain rfl : x6 = wb := funext h6
  obtain rfl : x8 = wd := funext h8
  obtain rfl : x3 = ba := funext h3
  obtain rfl : x5 = bc := funext h5
  obtain rfl : x7 = bb := funext h7
  obtain rfl : x9 = bd := funext h9
  rw [Cert.KernelIdeal.Body.stored0_apply, Cert.Layer.out_ix2]
  exact Cert.Layer.entry_rows h s x0 x1 x2 x4 x6 x8 _ _ _ _ r p hh hs q

set_option maxHeartbeats 8000000 in
/-- What point `t` writes back is block `t` of the layer of the whole arrays. -/
theorem flushed_eq (c : Dev nD) (t : Fin cfg0.N) :
    (dat0 V c).flushed 10 t = ((cfg0.win 10).blk t).view.read (Elt Ideal) (whole V c) := by
  show (cfg0.win 10).cut (grid0.coords t) ((dat0 V c).after 10 t) = _
  rw [after0_10]
  unfold out0_10
  rw [View.canon_unit_zero origin]
  simp only [View.ld_unit_zero (S := S4000x64) origin, View.ld_unit_zero (S := S64x64) origin, View.ld_unit_zero (S := S1x64) origin]
  obtain ⟨e0, e1, e2, e3, e4, e5, e6, e7, e8, e9, e10, e11, e12, e13, e14, e15, e16, e17, e18, e19, e20, e21⟩ := index_maps t
  funext y
  obtain ⟨p, q, rfl⟩ : ∃ (p : Fin 4000) (q : Fin 64), y = ix2 p q := ⟨y 0, y 1, eq_ix2 y⟩
  have ht : t.val < 25 := t.isLt
  let r : Fin 100000 := ⟨t.val * 4000 + p.val, by have := p.isLt; omega⟩
  have hb2 : ∀ z, iblk0 V c 2 t z = V c main_arg5 z := by
    intro z
    show V c main_arg5 (((cfg0.win 2).blk t).view.emb z) = V c main_arg5 z
    refine congrArg _ (funext fun a => Fin.ext ?_)
    match a with
    | ⟨0, _⟩ => show win0_2.index t (0 : Fin 2) * 64 + 1 * (z 0).val = (z 0).val; omega
    | ⟨1, _⟩ => show win0_2.index t (1 : Fin 2) * 64 + 1 * (z 1).val = (z 1).val; omega
  have hb4 : ∀ z, iblk0 V c 4 t z = V c main_arg3 z := by
    intro z
    show V c main_arg3 (((cfg0.win 4).blk t).view.emb z) = V c main_arg3 z
    refine congrArg _ (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega
  have hb6 : ∀ z, iblk0 V c 6 t z = V c main_arg7 z := by
    intro z
    show V c main_arg7 (((cfg0.win 6).blk t).view.emb z) = V c main_arg7 z
    refine congrArg _ (funext fun a => Fin.ext ?_)
    match a with
    | ⟨0, _⟩ => show win0_6.index t (0 : Fin 2) * 64 + 1 * (z 0).val = (z 0).val; omega
    | ⟨1, _⟩ => show win0_6.index t (1 : Fin 2) * 64 + 1 * (z 1).val = (z 1).val; omega
  have hb8 : ∀ z, iblk0 V c 8 t z = V c main_arg9 z := by
    intro z
    show V c main_arg9 (((cfg0.win 8).blk t).view.emb z) = V c main_arg9 z
    refine congrArg _ (funext fun a => Fin.ext ?_)
    match a with
    | ⟨0, _⟩ => show win0_8.index t (0 : Fin 2) * 64 + 1 * (z 0).val = (z 0).val; omega
    | ⟨1, _⟩ => show win0_8.index t (1 : Fin 2) * 64 + 1 * (z 1).val = (z 1).val; omega
  have hb3 : ∀ z, iblk0 V c 3 t z = V c main_v14 z := by
    intro z
    show V c main_v14 (((cfg0.win 3).blk t).view.emb z) = V c main_v14 z
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  have hb5 : ∀ z, iblk0 V c 5 t z = V c main_v15 z := by
    intro z
    show V c main_v15 (((cfg0.win 5).blk t).view.emb z) = V c main_v15 z
    refine congrArg _ (funext fun a => Fin.ext ?_)
    match a with
    | ⟨0, _⟩ => show win0_5.index t (0 : Fin 2) * 1 + 1 * (z 0).val = (z 0).val; omega
    | ⟨1, _⟩ => show win0_5.index t (1 : Fin 2) * 64 + 1 * (z 1).val = (z 1).val; omega
  have hb7 : ∀ z, iblk0 V c 7 t z = V c main_v16 z := by
    intro z
    show V c main_v16 (((cfg0.win 7).blk t).view.emb z) = V c main_v16 z
    refine congrArg _ (funext fun a => Fin.ext ?_)
    match a with
    | ⟨0, _⟩ => show win0_7.index t (0 : Fin 2) * 1 + 1 * (z 0).val = (z 0).val; omega
    | ⟨1, _⟩ => show win0_7.index t (1 : Fin 2) * 64 + 1 * (z 1).val = (z 1).val; omega
  have hb9 : ∀ z, iblk0 V c 9 t z = V c main_v17 z := by
    intro z
    show V c main_v17 (((cfg0.win 9).blk t).view.emb z) = V c main_v17 z
    refine congrArg _ (funext fun a => Fin.ext ?_)
    match a with
    | ⟨0, _⟩ => show win0_9.index t (0 : Fin 2) * 1 + 1 * (z 0).val = (z 0).val; omega
    | ⟨1, _⟩ => show win0_9.index t (1 : Fin 2) * 64 + 1 * (z 1).val = (z 1).val; omega
  have hr0 : ∀ kk : Fin 64, iblk0 V c 0 t (ix2 p kk) = V c main_arg0 (ix2 r kk) := by
    intro kk
    show V c main_arg0 (((cfg0.win 0).blk t).view.emb (ix2 p kk)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 64 + 1 * kk.val = kk.val; omega
  have hr1 : ∀ kk : Fin 64, iblk0 V c 1 t (ix2 p kk) = V c main_v13 (ix2 r kk) := by
    intro kk
    show V c main_v13 (((cfg0.win 1).blk t).view.emb (ix2 p kk)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 64 + 1 * kk.val = kk.val; omega
  have hemb : ((cfg0.win 10).blk t).view.emb (ix2 p q) = ix2 r q := by
    funext a; apply Fin.ext
    match a with
    | ⟨0, _⟩ => show win0_10.index t (0 : Fin 2) * 4000 + 1 * p.val = t.val * 4000 + p.val; omega
    | ⟨1, _⟩ => show win0_10.index t (1 : Fin 2) * 64 + 1 * q.val = q.val; omega
  show _ = whole V c (((cfg0.win 10).blk t).view.emb (ix2 p q))
  refine Eq.trans (b := whole V c (ix2 r q)) ?_ (congrArg (whole V c) hemb.symm)
  exact point_entry (iblk0 V c 0 t) (iblk0 V c 1 t) (iblk0 V c 2 t) (iblk0 V c 4 t) (iblk0 V c 6 t) (iblk0 V c 8 t) (iblk0 V c 3 t) (iblk0 V c 5 t) (iblk0 V c 7 t) (iblk0 V c 9 t)
    (V c main_arg0) (V c main_v13) (V c main_arg5) (V c main_arg3) (V c main_arg7) (V c main_arg9) (V c main_v14) (V c main_v15) (V c main_v16) (V c main_v17)
    p q r hr0 hr1 hb2 hb4 hb6 hb8 hb3 hb5 hb7 hb9

/-- An index of the output array is in point `t`'s block iff each coordinate is in the block's range. -/
theorem mem_block (t : Fin cfg0.N) (i : S100000x64.Idx) :
    i ∈ ((cfg0.win 10).blk t).view.set ↔ ∀ a : Fin 2, win0_10.index t a * S4000x64.size a ≤ (i a).val ∧ (i a).val < win0_10.index t a * S4000x64.size a + S4000x64.size a := by
  show i ∈ ((View.whole main_v18).slice (win0_10.rect t)).set ↔ _
  rw [View.set_slice_whole, Rect.mem_set_unit]
  exact Iff.rfl

/-- Every row lies in some point's block: row `r` in block `r / 4000`. -/
theorem covered (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  let t : Fin cfg0.N := ⟨(i 0).val / 4000, by show (i 0).val / 4000 < 25; omega⟩
  have ht : t.val = (i 0).val / 4000 := rfl
  obtain ⟨e0, e1, e2, e3, e4, e5, e6, e7, e8, e9, e10, e11, e12, e13, e14, e15, e16, e17, e18, e19, e20, e21⟩ := index_maps t
  refine ⟨t, flush0_10 t, ?_⟩
  rw [mem_block]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 64 ≤ (i 1).val ∧ (i 1).val < win0_10.index t (1 : Fin 2) * 64 + 64; omega

/-- After the region its output array is the layer of the arrays it was entered with. -/
theorem final (c : Dev nD) : (dat0 V c).arrAt 10 cfg0.N = whole V c :=
  (dat0 V c).arrAt_eq_of_cover 10 (whole V c) (fun t _ => flushed_eq V c t) (covered)

end Cert.KernelIdeal.Region0

end
-- ==== Proof.Region1.lean ====
/-
  Layer 2's kernel region: from blocks to the whole array.

  The grid has 25 points; point `t` reads rows 4000·t … 4000·t + 3999 of `h` and of `s`, the whole of each weight
  matrix and bias row, and writes back the same rows of the output.  What it writes back is, entry by entry,
  `Layer.entry` of the rows it read, which is `Layer.out` of the whole arrays at those rows: an entry of the layer
  depends on one row of `h` and `s` only.  The 25 blocks of 4000 rows tile the 100000 rows (row `r` lies in block
  `r / 4000`), so after the region the output array is `Layer.out` of the arrays as the region found them.
-/
import proofs.«150598_j2181843387146_1_alg».proof.Proof.Gen.KernelIdeal.Frame
import proofs.«150598_j2181843387146_1_alg».proof.Proof.Payload

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The layer of the arrays as the region finds them: window 0 is `h`, window 1 is `s`, windows 2, 4, 6, 8 the
    weight matrices and windows 3, 5, 7, 9 the bias rows (each a 1×64 array, read at its row 0). -/
def whole (c : Dev nD) : S100000x64.Idx → EReal :=
  Cert.Layer.out (V c main_v18) (V c main_v28) (V c main_arg13) (V c main_arg11) (V c main_arg15) (V c main_arg17)
    (fun q => V c main_v29 (ix2 0 q)) (fun q => V c main_v30 (ix2 0 q)) (fun q => V c main_v31 (ix2 0 q)) (fun q => V c main_v32 (ix2 0 q))

/-- The printed index maps over the 25 grid points: the row-blocked windows sit at block row `t`, every other
    block index is 0. -/
theorem index_maps : ∀ t : Fin cfg1.N, win1_10.index t (0 : Fin 2) = t.val
    ∧ win1_10.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0 :=
  (by decide +kernel : ∀ t : Fin grid1.N, _)

/-- The stored value of a point at row `p`, column `q` of its block, against the layer of whole arrays at row `r`,
    when the rows read are row `r` of `h` and of `s` and the weights and biases are the whole ones. -/
theorem point_entry (x0 x1 : Vec Ideal S4000x64 .f32) (x2 x4 x6 x8 : Vec Ideal S64x64 .f32) (x3 x5 x7 x9 : Vec Ideal S1x64 .f32)
    (h s : S100000x64.Idx → EReal) (wa wc wb wd : S64x64.Idx → EReal) (ba bc bb bd : S1x64.Idx → EReal)
    (p : Fin 4000) (q : Fin 64) (r : Fin 100000)
    (hh : ∀ kk : Fin 64, x0 (ix2 p kk) = h (ix2 r kk)) (hs : ∀ kk : Fin 64, x1 (ix2 p kk) = s (ix2 r kk))
    (h2 : ∀ z, x2 z = wa z) (h4 : ∀ z, x4 z = wc z) (h6 : ∀ z, x6 z = wb z) (h8 : ∀ z, x8 z = wd z)
    (h3 : ∀ z, x3 z = ba z) (h5 : ∀ z, x5 z = bc z) (h7 : ∀ z, x7 z = bb z) (h9 : ∀ z, x9 z = bd z) :
    k1_pay1 (F := Ideal) (k1_pay3 x0 x6 x7) (k1_pay4 x0 x8 x9) (k1_pay5 x0 x1 x2 x4 x3 x5) (ix2 p q)
      = Cert.Layer.out h s wa wc wb wd (fun q => ba (ix2 0 q)) (fun q => bc (ix2 0 q)) (fun q => bb (ix2 0 q)) (fun q => bd (ix2 0 q)) (ix2 r q) := by
  obtain rfl : x2 = wa := funext h2
  obtain rfl : x4 = wc := funext h4
  obtain rfl : x6 = wb := funext h6
  obtain rfl : x8 = wd := funext h8
  obtain rfl : x3 = ba := funext h3
  obtain rfl : x5 = bc := funext h5
  obtain rfl : x7 = bb := funext h7
  obtain rfl : x9 = bd := funext h9
  rw [Cert.KernelIdeal.Body.stored1_apply, Cert.Layer.out_ix2]
  exact Cert.Layer.entry_rows h s x0 x1 x2 x4 x6 x8 _ _ _ _ r p hh hs q

set_option maxHeartbeats 8000000 in
/-- What point `t` writes back is block `t` of the layer of the whole arrays. -/
theorem flushed_eq (c : Dev nD) (t : Fin cfg1.N) :
    (dat1 V c).flushed 10 t = ((cfg1.win 10).blk t).view.read (Elt Ideal) (whole V c) := by
  show (cfg1.win 10).cut (grid1.coords t) ((dat1 V c).after 10 t) = _
  rw [after1_10]
  unfold out1_10
  rw [View.canon_unit_zero origin]
  simp only [View.ld_unit_zero (S := S4000x64) origin, View.ld_unit_zero (S := S64x64) origin, View.ld_unit_zero (S := S1x64) origin]
  obtain ⟨e0, e1, e2, e3, e4, e5, e6, e7, e8, e9, e10, e11, e12, e13, e14, e15, e16, e17, e18, e19, e20, e21⟩ := index_maps t
  funext y
  obtain ⟨p, q, rfl⟩ : ∃ (p : Fin 4000) (q : Fin 64), y = ix2 p q := ⟨y 0, y 1, eq_ix2 y⟩
  have ht : t.val < 25 := t.isLt
  let r : Fin 100000 := ⟨t.val * 4000 + p.val, by have := p.isLt; omega⟩
  have hb2 : ∀ z, iblk1 V c 2 t z = V c main_arg13 z := by
    intro z
    show V c main_arg13 (((cfg1.win 2).blk t).view.emb z) = V c main_arg13 z
    refine congrArg _ (funext fun a => Fin.ext ?_)
    match a with
    | ⟨0, _⟩ => show win1_2.index t (0 : Fin 2) * 64 + 1 * (z 0).val = (z 0).val; omega
    | ⟨1, _⟩ => show win1_2.index t (1 : Fin 2) * 64 + 1 * (z 1).val = (z 1).val; omega
  have hb4 : ∀ z, iblk1 V c 4 t z = V c main_arg11 z := by
    intro z
    show V c main_arg11 (((cfg1.win 4).blk t).view.emb z) = V c main_arg11 z
    refine congrArg _ (funext fun a => Fin.ext ?_)
    match a with
    | ⟨0, _⟩ => show win1_4.index t (0 : Fin 2) * 64 + 1 * (z 0).val = (z 0).val; omega
    | ⟨1, _⟩ => show win1_4.index t (1 : Fin 2) * 64 + 1 * (z 1).val = (z 1).val; omega
  have hb6 : ∀ z, iblk1 V c 6 t z = V c main_arg15 z := by
    intro z
    show V c main_arg15 (((cfg1.win 6).blk t).view.emb z) = V c main_arg15 z
    refine congrArg _ (funext fun a => Fin.ext ?_)
    match a with
    | ⟨0, _⟩ => show win1_6.index t (0 : Fin 2) * 64 + 1 * (z 0).val = (z 0).val; omega
    | ⟨1, _⟩ => show win1_6.index t (1 : Fin 2) * 64 + 1 * (z 1).val = (z 1).val; omega
  have hb8 : ∀ z, iblk1 V c 8 t z = V c main_arg17 z := by
    intro z
    show V c main_arg17 (((cfg1.win 8).blk t).view.emb z) = V c main_arg17 z
    refine congrArg _ (funext fun a => Fin.ext ?_)
    match a with
    | ⟨0, _⟩ => show win1_8.index t (0 : Fin 2) * 64 + 1 * (z 0).val = (z 0).val; omega
    | ⟨1, _⟩ => show win1_8.index t (1 : Fin 2) * 64 + 1 * (z 1).val = (z 1).val; omega
  have hb3 : ∀ z, iblk1 V c 3 t z = V c main_v29 z := by
    intro z
    show V c main_v29 (((cfg1.win 3).blk t).view.emb z) = V c main_v29 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 64 + 1 * (z 1).val = (z 1).val; omega
  have hb5 : ∀ z, iblk1 V c 5 t z = V c main_v30 z := by
    intro z
    show V c main_v30 (((cfg1.win 5).blk t).view.emb z) = V c main_v30 z
    refine congrArg _ (funext fun a => Fin.ext ?_)
    match a with
    | ⟨0, _⟩ => show win1_5.index t (0 : Fin 2) * 1 + 1 * (z 0).val = (z 0).val; omega
    | ⟨1, _⟩ => show win1_5.index t (1 : Fin 2) * 64 + 1 * (z 1).val = (z 1).val; omega
  have hb7 : ∀ z, iblk1 V c 7 t z = V c main_v31 z := by
    intro z
    show V c main_v31 (((cfg1.win 7).blk t).view.emb z) = V c main_v31 z
    refine congrArg _ (funext fun a => Fin.ext ?_)
    match a with
    | ⟨0, _⟩ => show win1_7.index t (0 : Fin 2) * 1 + 1 * (z 0).val = (z 0).val; omega
    | ⟨1, _⟩ => show win1_7.index t (1 : Fin 2) * 64 + 1 * (z 1).val = (z 1).val; omega
  have hb9 : ∀ z, iblk1 V c 9 t z = V c main_v32 z := by
    intro z
    show V c main_v32 (((cfg1.win 9).blk t).view.emb z) = V c main_v32 z
    refine congrArg _ (funext fun a => Fin.ext ?_)
    match a with
    | ⟨0, _⟩ => show win1_9.index t (0 : Fin 2) * 1 + 1 * (z 0).val = (z 0).val; omega
    | ⟨1, _⟩ => show win1_9.index t (1 : Fin 2) * 64 + 1 * (z 1).val = (z 1).val; omega
  have hr0 : ∀ kk : Fin 64, iblk1 V c 0 t (ix2 p kk) = V c main_v18 (ix2 r kk) := by
    intro kk
    show V c main_v18 (((cfg1.win 0).blk t).view.emb (ix2 p kk)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 64 + 1 * kk.val = kk.val; omega
  have hr1 : ∀ kk : Fin 64, iblk1 V c 1 t (ix2 p kk) = V c main_v28 (ix2 r kk) := by
    intro kk
    show V c main_v28 (((cfg1.win 1).blk t).view.emb (ix2 p kk)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 64 + 1 * kk.val = kk.val; omega
  have hemb : ((cfg1.win 10).blk t).view.emb (ix2 p q) = ix2 r q := by
    funext a; apply Fin.ext
    match a with
    | ⟨0, _⟩ => show win1_10.index t (0 : Fin 2) * 4000 + 1 * p.val = t.val * 4000 + p.val; omega
    | ⟨1, _⟩ => show win1_10.index t (1 : Fin 2) * 64 + 1 * q.val = q.val; omega
  show _ = whole V c (((cfg1.win 10).blk t).view.emb (ix2 p q))
  refine Eq.trans (b := whole V c (ix2 r q)) ?_ (congrArg (whole V c) hemb.symm)
  exact point_entry (iblk1 V c 0 t) (iblk1 V c 1 t) (iblk1 V c 2 t) (iblk1 V c 4 t) (iblk1 V c 6 t) (iblk1 V c 8 t) (iblk1 V c 3 t) (iblk1 V c 5 t) (iblk1 V c 7 t) (iblk1 V c 9 t)
    (V c main_v18) (V c main_v28) (V c main_arg13) (V c main_arg11) (V c main_arg15) (V c main_arg17) (V c main_v29) (V c main_v30) (V c main_v31) (V c main_v32)
    p q r hr0 hr1 hb2 hb4 hb6 hb8 hb3 hb5 hb7 hb9

/-- An index of the output array is in point `t`'s block iff each coordinate is in the block's range. -/
theorem mem_block (t : Fin cfg1.N) (i : S100000x64.Idx) :
    i ∈ ((cfg1.win 10).blk t).view.set ↔ ∀ a : Fin 2, win1_10.index t a * S4000x64.size a ≤ (i a).val ∧ (i a).val < win1_10.index t a * S4000x64.size a + S4000x64.size a := by
  show i ∈ ((View.whole main_v33).slice (win1_10.rect t)).set ↔ _
  rw [View.set_slice_whole, Rect.mem_set_unit]
  exact Iff.rfl

/-- Every row lies in some point's block: row `r` in block `r / 4000`. -/
theorem covered (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  let t : Fin cfg1.N := ⟨(i 0).val / 4000, by show (i 0).val / 4000 < 25; omega⟩
  have ht : t.val = (i 0).val / 4000 := rfl
  obtain ⟨e0, e1, e2, e3, e4, e5, e6, e7, e8, e9, e10, e11, e12, e13, e14, e15, e16, e17, e18, e19, e20, e21⟩ := index_maps t
  refine ⟨t, flush1_10 t, ?_⟩
  rw [mem_block]
  intro a
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 64 ≤ (i 1).val ∧ (i 1).val < win1_10.index t (1 : Fin 2) * 64 + 64; omega

/-- After the region its output array is the layer of the arrays it was entered with. -/
theorem final (c : Dev nD) : (dat1 V c).arrAt 10 cfg1.N = whole V c :=
  (dat1 V c).arrAt_eq_of_cover 10 (whole V c) (fun t _ => flushed_eq V c t) (covered)

end Cert.KernelIdeal.Region1

end
-- ==== Proof.Region2.lean ====
/-
  Layer 3's kernel region: from blocks to the whole array.

  The grid has 25 points; point `t` reads rows 4000·t … 4000·t + 3999 of `h` and of `s`, the whole of each weight
  matrix and bias row, and writes back the same rows of the output.  What it writes back is, entry by entry,
  `Layer.entry` of the rows it read, which is `Layer.out` of the whole arrays at those rows: an entry of the layer
  depends on one row of `h` and `s` only.  The 25 blocks of 4000 rows tile the 100000 rows (row `r` lies in block
  `r / 4000`), so after the region the output array is `Layer.out` of the arrays as the region found them.
-/
import proofs.«150598_j2181843387146_1_alg».proof.Proof.Gen.KernelIdeal.Frame
import proofs.«150598_j2181843387146_1_alg».proof.Proof.Payload

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The layer of the arrays as the region finds them: window 0 is `h`, window 1 is `s`, windows 2, 4, 6, 8 the
    weight matrices and windows 3, 5, 7, 9 the bias rows (each a 1×64 array, read at its row 0). -/
def whole (c : Dev nD) : S100000x64.Idx → EReal :=
  Cert.Layer.out (V c main_v33) (V c main_v43) (V c main_arg21) (V c main_arg19) (V c main_arg23) (V c main_arg25)
    (fun q => V c main_v44 (ix2 0 q)) (fun q => V c main_v45 (ix2 0 q)) (fun q => V c main_v46 (ix2 0 q)) (fun q => V c main_v47 (ix2 0 q))

/-- The printed index maps over the 25 grid points: the row-blocked windows sit at block row `t`, every other
    block index is 0. -/
theorem index_maps : ∀ t : Fin cfg2.N, win2_10.index t (0 : Fin 2) = t.val
    ∧ win2_10.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0 :=
  (by decide +kernel : ∀ t : Fin grid2.N, _)

/-- The stored value of a point at row `p`, column `q` of its block, against the layer of whole arrays at row `r`,
    when the rows read are row `r` of `h` and of `s` and the weights and biases are the whole ones. -/
theorem point_entry (x0 x1 : Vec Ideal S4000x64 .f32) (x2 x4 x6 x8 : Vec Ideal S64x64 .f32) (x3 x5 x7 x9 : Vec Ideal S1x64 .f32)
    (h s : S100000x64.Idx → EReal) (wa wc wb wd : S64x64.Idx → EReal) (ba bc bb bd : S1x64.Idx → EReal)
    (p : Fin 4000) (q : Fin 64) (r : Fin 100000)
    (hh : ∀ kk : Fin 64, x0 (ix2 p kk) = h (ix2 r kk)) (hs : ∀ kk : Fin 64, x1 (ix2 p kk) = s (ix2 r kk))
    (h2 : ∀ z, x2 z = wa z) (h4 : ∀ z, x4 z = wc z) (h6 : ∀ z, x6 z = wb z) (h8 : ∀ z, x8 z = wd z)
    (h3 : ∀ z, x3 z = ba z) (h5 : ∀ z, x5 z = bc z) (h7 : ∀ z, x7 z = bb z) (h9 : ∀ z, x9 z = bd z) :
    k2_pay1 (F := Ideal) (k2_pay3 x0 x6 x7) (k2_pay4 x0 x8 x9) (k2_pay5 x0 x1 x2 x4 x3 x5) (ix2 p q)
      = Cert.Layer.out h s wa wc wb wd (fun q => ba (ix2 0 q)) (fun q => bc (ix2 0 q)) (fun q => bb (ix2 0 q)) (fun q => bd (ix2 0 q)) (ix2 r q) := by
  obtain rfl : x2 = wa := funext h2
  obtain rfl : x4 = wc := funext h4
  obtain rfl : x6 = wb := funext h6
  obtain rfl : x8 = wd := funext h8
  obtain rfl : x3 = ba := funext h3
  obtain rfl : x5 = bc := funext h5
  obtain rfl : x7 = bb := funext h7
  obtain rfl : x9 = bd := funext h9
  rw [Cert.KernelIdeal.Body.stored2_apply, Cert.Layer.out_ix2]
  exact Cert.Layer.entry_rows h s x0 x1 x2 x4 x6 x8 _ _ _ _ r p hh hs q

set_option maxHeartbeats 8000000 in
/-- What point `t` writes back is block `t` of the layer of the whole arrays. -/
theorem flushed_eq (c : Dev nD) (t : Fin cfg2.N) :
    (dat2 V c).flushed 10 t = ((cfg2.win 10).blk t).view.read (Elt Ideal) (whole V c) := by
  show (cfg2.win 10).cut (grid2.coords t) ((dat2 V c).after 10 t) = _
  rw [after2_10]
  unfold out2_10
  rw [View.canon_unit_zero origin]
  simp only [View.ld_unit_zero (S := S4000x64) origin, View.ld_unit_zero (S := S64x64) origin, View.ld_unit_zero (S := S1x64) origin]
  obtain ⟨e0, e1, e2, e3, e4, e5, e6, e7, e8, e9, e10, e11, e12, e13, e14, e15, e16, e17, e18, e19, e20, e21⟩ := index_maps t
  funext y
  obtain ⟨p, q, rfl⟩ : ∃ (p : Fin 4000) (q : Fin 64), y = ix2 p q := ⟨y 0, y 1, eq_ix2 y⟩
  have ht : t.val < 25 := t.isLt
  let r : Fin 100000 := ⟨t.val * 4000 + p.val, by have := p.isLt; omega⟩
  have hb2 : ∀ z, iblk2 V c 2 t z = V c main_arg21 z := by
    intro z
    show V c main_arg21 (((cfg2.win 2).blk t).view.emb z) = V c main_arg21 z
    refine congrArg _ (funext fun a => Fin.ext ?_)
    match a with
    | ⟨0, _⟩ => show win2_2.index t (0 : Fin 2) * 64 + 1 * (z 0).val = (z 0).val; omega
    | ⟨1, _⟩ => show win2_2.index t (1 : Fin 2) * 64 + 1 * (z 1).val = (z 1).val; omega
  have hb4 : ∀ z, iblk2 V c 4 t z = V c main_arg19 z := by
    intro z
    show V c main_arg19 (((cfg2.win 4).blk t).view.emb z) = V c main_arg19 z
    refine congrArg _ (funext fun a => Fin.ext ?_)
    match a with
    | ⟨0, _⟩ => show win2_4.index t (0 : Fin 2) * 64 + 1 * (z 0).val = (z 0).val; omega
    | ⟨1, _⟩ => show win2_4.index t (1 : Fin 2) * 64 + 1 * (z 1).val = (z 1).val; omega
  have hb6 : ∀ z, iblk2 V c 6 t z = V c main_arg23 z := by
    intro z
    show V c main_arg23 (((cfg2.win 6).blk t).view.emb z) = V c main_arg23 z
    refine congrArg _ (funext fun a => Fin.ext ?_)
    match a with
    | ⟨0, _⟩ => show win2_6.index t (0 : Fin 2) * 64 + 1 * (z 0).val = (z 0).val; omega
    | ⟨1, _⟩ => show win2_6.index t (1 : Fin 2) * 64 + 1 * (z 1).val = (z 1).val; omega
  have hb8 : ∀ z, iblk2 V c 8 t z = V c main_arg25 z := by
    intro z
    show V c main_arg25 (((cfg2.win 8).blk t).view.emb z) = V c main_arg25 z
    refine congrArg _ (funext fun a => Fin.ext ?_)
    match a with
    | ⟨0, _⟩ => show win2_8.index t (0 : Fin 2) * 64 + 1 * (z 0).val = (z 0).val; omega
    | ⟨1, _⟩ => show win2_8.index t (1 : Fin 2) * 64 + 1 * (z 1).val = (z 1).val; omega
  have hb3 : ∀ z, iblk2 V c 3 t z = V c main_v44 z := by
    intro z
    show V c main_v44 (((cfg2.win 3).blk t).view.emb z) = V c main_v44 z
    refine congrArg _ (funext fun a => Fin.ext ?_)
    match a with
    | ⟨0, _⟩ => show win2_3.index t (0 : Fin 2) * 1 + 1 * (z 0).val = (z 0).val; omega
    | ⟨1, _⟩ => show win2_3.index t (1 : Fin 2) * 64 + 1 * (z 1).val = (z 1).val; omega
  have hb5 : ∀ z, iblk2 V c 5 t z = V c main_v45 z := by
    intro z
    show V c main_v45 (((cfg2.win 5).blk t).view.emb z) = V c main_v45 z
    refine congrArg _ (funext fun a => Fin.ext ?_)
    match a with
    | ⟨0, _⟩ => show win2_5.index t (0 : Fin 2) * 1 + 1 * (z 0).val = (z 0).val; omega
    | ⟨1, _⟩ => show win2_5.index t (1 : Fin 2) * 64 + 1 * (z 1).val = (z 1).val; omega
  have hb7 : ∀ z, iblk2 V c 7 t z = V c main_v46 z := by
    intro z
    show V c main_v46 (((cfg2.win 7).blk t).view.emb z) = V c main_v46 z
    refine congrArg _ (funext fun a => Fin.ext ?_)
    match a with
    | ⟨0, _⟩ => show win2_7.index t (0 : Fin 2) * 1 + 1 * (z 0).val = (z 0).val; omega
    | ⟨1, _⟩ => show win2_7.index t (1 : Fin 2) * 64 + 1 * (z 1).val = (z 1).val; omega
  have hb9 : ∀ z, iblk2 V c 9 t z = V c main_v47 z := by
    intro z
    show V c main_v47 (((cfg2.win 9).blk t).view.emb z) = V c main_v47 z
    refine congrArg _ (funext fun a => Fin.ext ?_)
    match a with
    | ⟨0, _⟩ => show win2_9.index t (0 : Fin 2) * 1 + 1 * (z 0).val = (z 0).val; omega
    | ⟨1, _⟩ => show win2_9.index t (1 : Fin 2) * 64 + 1 * (z 1).val = (z 1).val; omega
  have hr0 : ∀ kk : Fin 64, iblk2 V c 0 t (ix2 p kk) = V c main_v33 (ix2 r kk) := by
    intro kk
    show V c main_v33 (((cfg2.win 0).blk t).view.emb (ix2 p kk)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 64 + 1 * kk.val = kk.val; omega
  have hr1 : ∀ kk : Fin 64, iblk2 V c 1 t (ix2 p kk) = V c main_v43 (ix2 r kk) := by
    intro kk
    show V c main_v43 (((cfg2.win 1).blk t).view.emb (ix2 p kk)) = _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 64 + 1 * kk.val = kk.val; omega
  have hemb : ((cfg2.win 10).blk t).view.emb (ix2 p q) = ix2 r q := by
    funext a; apply Fin.ext
    match a with
    | ⟨0, _⟩ => show win2_10.index t (0 : Fin 2) * 4000 + 1 * p.val = t.val * 4000 + p.val; omega
    | ⟨1, _⟩ => show win2_10.index t (1 : Fin 2) * 64 + 1 * q.val = q.val; omega
  show _ = whole V c (((cfg2.win 10).blk t).view.emb (ix2 p q))
  refine Eq.trans (b := whole V c (ix2 r q)) ?_ (congrArg (whole V c) hemb.symm)
  exact point_entry (iblk2 V c 0 t) (iblk2 V c 1 t) (iblk2 V c 2 t) (iblk2 V c 4 t) (iblk2 V c 6 t) (iblk2 V c 8 t) (iblk2 V c 3 t) (iblk2 V c 5 t) (iblk2 V c 7 t) (iblk2 V c 9 t)
    (V c main_v33) (V c main_v43) (V c main_arg21) (V c main_arg19) (V c main_arg23) (V c main_arg25) (V c main_v44) (V c main_v45) (V c main_v46) (V c main_v47)
    p q r hr0 hr1 hb2 hb4 hb6 hb8 hb3 hb5 hb7 hb9

/-- An index of the output array is in point `t`'s block iff each coordinate is in the block's range. -/
theorem mem_block (t : Fin cfg2.N) (i : S100000x64.Idx) :
    i ∈ ((cfg2.win 10).blk t).view.set ↔ ∀ a : Fin 2, win2_10.index t a * S4000x64.size a ≤ (i a).val ∧ (i a).val < win2_10.index t a * S4000x64.size a + S4000x64.size a := by
  show i ∈ ((View.whole main_v48).slice (win2_10.rect t)).set ↔ _
  rw [View.set_slice_whole, Rect.mem_set_unit]
  exact Iff.rfl

/-- Every row lies in some point's block: row `r` in block `r / 4000`. -/
theorem covered (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  let t : Fin cfg2.N := ⟨(i 0).val / 4000, by show (i 0).val / 4000 < 25; omega⟩
  have ht : t.val = (i 0).val / 4000 := rfl
  obtain ⟨e0, e1, e2, e3, e4, e5, e6, e7, e8, e9, e10, e11, e12, e13, e14, e15, e16, e17, e18, e19, e20, e21⟩ := index_maps t
  refine ⟨t, flush2_10 t, ?_⟩
  rw [mem_block]
  intro a
  match a with
  | ⟨0, _⟩ => show win2_10.index t (0 : Fin 2) * 4000 ≤ (i 0).val ∧ (i 0).val < win2_10.index t (0 : Fin 2) * 4000 + 4000; omega
  | ⟨1, _⟩ => show win2_10.index t (1 : Fin 2) * 64 ≤ (i 1).val ∧ (i 1).val < win2_10.index t (1 : Fin 2) * 64 + 64; omega

/-- After the region its output array is the layer of the arrays it was entered with. -/
theorem final (c : Dev nD) : (dat2 V c).arrAt 10 cfg2.N = whole V c :=
  (dat2 V c).arrAt_eq_of_cover 10 (whole V c) (fun t _ => flushed_eq V c t) (covered)

end Cert.KernelIdeal.Region2

end
-- ==== Proof.Stretch0.lean ====
/-
  The host operations before the first layer's kernel region, read buffer by buffer.

  They split the edge list into its source row and destination row, sum `x` over incoming edges (a gather of the
  source rows followed by a scatter-add at the destination rows — carried here as the reference's own stage, never
  opened), and copy each of the layer's four bias vectors into a 1×64 array.  Every argument array is left as it was.
-/
import proofs.«150598_j2181843387146_1_alg».proof.Proof.Gen.KernelIdeal.Launch
import proofs.«150598_j2181843387146_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Stretch0

open Idealize.ShloMosaic Idealize.ShloMosaic.TcCoe Idealize.ShloMosaic.StableHlo Idealize.ShloMosaic.ValueIdx
open Cert.KernelIdeal Cert.KernelIdeal.Gen
open Cert.ReferenceIdeal.Read (val_main_v0 val_main_v1 val_main_v2 val_main_v3)

variable (W : Valuation τ sig (Elt Ideal))

/-- The edges' source row. -/
theorem src : StableHlo.after hostOps0 W (Proc.devRef .tc main_v1) = Cert.ReferenceIdeal.Read.val_main_v1 (F := Ideal) (W (Proc.devRef .tc main_arg1)) := by
  after_results
  unfold Cert.ReferenceIdeal.Read.val_main_v1 Cert.ReferenceIdeal.Read.val_main_v0
  rfl
/-- The edges' destination row. -/
theorem dst : StableHlo.after hostOps0 W (Proc.devRef .tc main_v3) = Cert.ReferenceIdeal.Read.val_main_v3 (F := Ideal) (W (Proc.devRef .tc main_arg1)) := by
  after_results
  unfold Cert.ReferenceIdeal.Read.val_main_v3 Cert.ReferenceIdeal.Read.val_main_v2
  rfl
set_option maxHeartbeats 1000000 in
/-- The input summed over incoming edges: the reference's stage of the same operations. -/
theorem edgeSum : StableHlo.after hostOps0 W (Proc.devRef .tc main_v13)
    = Cert.ReferenceIdeal.Read.val_main_v17 (F := Ideal) (W (Proc.devRef .tc main_arg0)) (W (Proc.devRef .tc main_arg1)) := by
  after_results_simp
  unfold Cert.ReferenceIdeal.Read.val_main_v17 Cert.ReferenceIdeal.Read.val_main_v16 Cert.ReferenceIdeal.Read.val_main_v15 Cert.ReferenceIdeal.Read.val_main_cst Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_c_0 Cert.ReferenceIdeal.Read.val_main_v9 Cert.ReferenceIdeal.Read.val_main_v8 Cert.ReferenceIdeal.Read.val_main_c
    Cert.ReferenceIdeal.Read.val_main_v3 Cert.ReferenceIdeal.Read.val_main_v2 Cert.ReferenceIdeal.Read.val_main_v1 Cert.ReferenceIdeal.Read.val_main_v0
  rfl
/-- Bias row: the 1×64 copy of a 64-vector, read at row 0, column `q`, is the vector's entry `q`. -/
theorem bias14 (q : Fin 64) : StableHlo.after hostOps0 W (Proc.devRef .tc main_v14) (ix2 0 q) = W (Proc.devRef .tc main_arg6) (ix1 q) := by
  have e : StableHlo.after hostOps0 W (Proc.devRef .tc main_v14) = shapeCast S1x64 (W (Proc.devRef .tc main_arg6)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias15 (q : Fin 64) : StableHlo.after hostOps0 W (Proc.devRef .tc main_v15) (ix2 0 q) = W (Proc.devRef .tc main_arg4) (ix1 q) := by
  have e : StableHlo.after hostOps0 W (Proc.devRef .tc main_v15) = shapeCast S1x64 (W (Proc.devRef .tc main_arg4)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias16 (q : Fin 64) : StableHlo.after hostOps0 W (Proc.devRef .tc main_v16) (ix2 0 q) = W (Proc.devRef .tc main_arg8) (ix1 q) := by
  have e : StableHlo.after hostOps0 W (Proc.devRef .tc main_v16) = shapeCast S1x64 (W (Proc.devRef .tc main_arg8)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias17 (q : Fin 64) : StableHlo.after hostOps0 W (Proc.devRef .tc main_v17) (ix2 0 q) = W (Proc.devRef .tc main_arg10) (ix1 q) := by
  have e : StableHlo.after hostOps0 W (Proc.devRef .tc main_v17) = shapeCast S1x64 (W (Proc.devRef .tc main_arg10)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega

/-! The argument arrays are not written. -/
theorem keep_arg0 : StableHlo.after hostOps0 W (Proc.devRef .tc main_arg0) = W (Proc.devRef .tc main_arg0) := by
  after_results
theorem keep_arg1 : StableHlo.after hostOps0 W (Proc.devRef .tc main_arg1) = W (Proc.devRef .tc main_arg1) := by
  after_results
theorem keep_arg2 : StableHlo.after hostOps0 W (Proc.devRef .tc main_arg2) = W (Proc.devRef .tc main_arg2) := by
  after_results
theorem keep_arg3 : StableHlo.after hostOps0 W (Proc.devRef .tc main_arg3) = W (Proc.devRef .tc main_arg3) := by
  after_results
theorem keep_arg4 : StableHlo.after hostOps0 W (Proc.devRef .tc main_arg4) = W (Proc.devRef .tc main_arg4) := by
  after_results
theorem keep_arg5 : StableHlo.after hostOps0 W (Proc.devRef .tc main_arg5) = W (Proc.devRef .tc main_arg5) := by
  after_results
theorem keep_arg6 : StableHlo.after hostOps0 W (Proc.devRef .tc main_arg6) = W (Proc.devRef .tc main_arg6) := by
  after_results
theorem keep_arg7 : StableHlo.after hostOps0 W (Proc.devRef .tc main_arg7) = W (Proc.devRef .tc main_arg7) := by
  after_results
theorem keep_arg8 : StableHlo.after hostOps0 W (Proc.devRef .tc main_arg8) = W (Proc.devRef .tc main_arg8) := by
  after_results
theorem keep_arg9 : StableHlo.after hostOps0 W (Proc.devRef .tc main_arg9) = W (Proc.devRef .tc main_arg9) := by
  after_results
theorem keep_arg10 : StableHlo.after hostOps0 W (Proc.devRef .tc main_arg10) = W (Proc.devRef .tc main_arg10) := by
  after_results
theorem keep_arg11 : StableHlo.after hostOps0 W (Proc.devRef .tc main_arg11) = W (Proc.devRef .tc main_arg11) := by
  after_results
theorem keep_arg12 : StableHlo.after hostOps0 W (Proc.devRef .tc main_arg12) = W (Proc.devRef .tc main_arg12) := by
  after_results
theorem keep_arg13 : StableHlo.after hostOps0 W (Proc.devRef .tc main_arg13) = W (Proc.devRef .tc main_arg13) := by
  after_results
theorem keep_arg14 : StableHlo.after hostOps0 W (Proc.devRef .tc main_arg14) = W (Proc.devRef .tc main_arg14) := by
  after_results
theorem keep_arg15 : StableHlo.after hostOps0 W (Proc.devRef .tc main_arg15) = W (Proc.devRef .tc main_arg15) := by
  after_results
theorem keep_arg16 : StableHlo.after hostOps0 W (Proc.devRef .tc main_arg16) = W (Proc.devRef .tc main_arg16) := by
  after_results
theorem keep_arg17 : StableHlo.after hostOps0 W (Proc.devRef .tc main_arg17) = W (Proc.devRef .tc main_arg17) := by
  after_results
theorem keep_arg18 : StableHlo.after hostOps0 W (Proc.devRef .tc main_arg18) = W (Proc.devRef .tc main_arg18) := by
  after_results
theorem keep_arg19 : StableHlo.after hostOps0 W (Proc.devRef .tc main_arg19) = W (Proc.devRef .tc main_arg19) := by
  after_results
theorem keep_arg20 : StableHlo.after hostOps0 W (Proc.devRef .tc main_arg20) = W (Proc.devRef .tc main_arg20) := by
  after_results
theorem keep_arg21 : StableHlo.after hostOps0 W (Proc.devRef .tc main_arg21) = W (Proc.devRef .tc main_arg21) := by
  after_results
theorem keep_arg22 : StableHlo.after hostOps0 W (Proc.devRef .tc main_arg22) = W (Proc.devRef .tc main_arg22) := by
  after_results
theorem keep_arg23 : StableHlo.after hostOps0 W (Proc.devRef .tc main_arg23) = W (Proc.devRef .tc main_arg23) := by
  after_results
theorem keep_arg24 : StableHlo.after hostOps0 W (Proc.devRef .tc main_arg24) = W (Proc.devRef .tc main_arg24) := by
  after_results
theorem keep_arg25 : StableHlo.after hostOps0 W (Proc.devRef .tc main_arg25) = W (Proc.devRef .tc main_arg25) := by
  after_results
theorem keep_arg26 : StableHlo.after hostOps0 W (Proc.devRef .tc main_arg26) = W (Proc.devRef .tc main_arg26) := by
  after_results
theorem keep_arg27 : StableHlo.after hostOps0 W (Proc.devRef .tc main_arg27) = W (Proc.devRef .tc main_arg27) := by
  after_results
theorem keep_arg28 : StableHlo.after hostOps0 W (Proc.devRef .tc main_arg28) = W (Proc.devRef .tc main_arg28) := by
  after_results
theorem keep_arg29 : StableHlo.after hostOps0 W (Proc.devRef .tc main_arg29) = W (Proc.devRef .tc main_arg29) := by
  after_results
theorem keep_arg30 : StableHlo.after hostOps0 W (Proc.devRef .tc main_arg30) = W (Proc.devRef .tc main_arg30) := by
  after_results

end Cert.KernelIdeal.Stretch0

end
-- ==== Proof.Stretch1.lean ====
/-
  The host operations between layer 1's and layer 2's kernel regions, read buffer by buffer.

  They sum the previous layer's output over incoming edges (gather at the edges' sources, scatter-add at their
  destinations: the reference's own stage, never opened) and copy the layer's four bias vectors into 1×64 arrays.
  The previous layer's output, the edge rows and every argument array are left as they were.
-/
import proofs.«150598_j2181843387146_1_alg».proof.Proof.Gen.KernelIdeal.Launch
import proofs.«150598_j2181843387146_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Stretch1

open Idealize.ShloMosaic Idealize.ShloMosaic.TcCoe Idealize.ShloMosaic.StableHlo Idealize.ShloMosaic.ValueIdx
open Cert.KernelIdeal Cert.KernelIdeal.Gen
open Cert.ReferenceIdeal.Read (val_main_v0 val_main_v1 val_main_v2 val_main_v3)

variable (W : Valuation τ sig (Elt Ideal))

set_option maxHeartbeats 1000000 in
/-- The previous layer's output summed over incoming edges, when that output and the edge rows are the reference's. -/
theorem edgeSum (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))
    (hh : W (Proc.devRef .tc main_v18) = Cert.ReferenceIdeal.Read.val_main_v33 (F := Ideal) x0 x1 x3 x4 x5 x6 x7 x8 x9 x10)
    (hsrc : W (Proc.devRef .tc main_v1) = Cert.ReferenceIdeal.Read.val_main_v1 (F := Ideal) x1)
    (hdst : W (Proc.devRef .tc main_v3) = Cert.ReferenceIdeal.Read.val_main_v3 (F := Ideal) x1) :
    StableHlo.after hostOps1 W (Proc.devRef .tc main_v28) = Cert.ReferenceIdeal.Read.val_main_v47 (F := Ideal) x0 x1 x3 x4 x5 x6 x7 x8 x9 x10 := by
  after_results_simp
  rw [hh, hsrc, hdst]
  unfold Cert.ReferenceIdeal.Read.val_main_v47 Cert.ReferenceIdeal.Read.val_main_v46 Cert.ReferenceIdeal.Read.val_main_v45 Cert.ReferenceIdeal.Read.val_main_cst_3 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_c_2 Cert.ReferenceIdeal.Read.val_main_v39 Cert.ReferenceIdeal.Read.val_main_v38 Cert.ReferenceIdeal.Read.val_main_c_1
  rfl
/-- Bias row: the 1×64 copy of a 64-vector, read at row 0, column `q`, is the vector's entry `q`. -/
theorem bias29 (q : Fin 64) : StableHlo.after hostOps1 W (Proc.devRef .tc main_v29) (ix2 0 q) = W (Proc.devRef .tc main_arg14) (ix1 q) := by
  have e : StableHlo.after hostOps1 W (Proc.devRef .tc main_v29) = shapeCast S1x64 (W (Proc.devRef .tc main_arg14)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias30 (q : Fin 64) : StableHlo.after hostOps1 W (Proc.devRef .tc main_v30) (ix2 0 q) = W (Proc.devRef .tc main_arg12) (ix1 q) := by
  have e : StableHlo.after hostOps1 W (Proc.devRef .tc main_v30) = shapeCast S1x64 (W (Proc.devRef .tc main_arg12)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias31 (q : Fin 64) : StableHlo.after hostOps1 W (Proc.devRef .tc main_v31) (ix2 0 q) = W (Proc.devRef .tc main_arg16) (ix1 q) := by
  have e : StableHlo.after hostOps1 W (Proc.devRef .tc main_v31) = shapeCast S1x64 (W (Proc.devRef .tc main_arg16)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias32 (q : Fin 64) : StableHlo.after hostOps1 W (Proc.devRef .tc main_v32) (ix2 0 q) = W (Proc.devRef .tc main_arg18) (ix1 q) := by
  have e : StableHlo.after hostOps1 W (Proc.devRef .tc main_v32) = shapeCast S1x64 (W (Proc.devRef .tc main_arg18)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega

/-! What is not written. -/
theorem keep_h : StableHlo.after hostOps1 W (Proc.devRef .tc main_v18) = W (Proc.devRef .tc main_v18) := by
  after_results
theorem keep_src : StableHlo.after hostOps1 W (Proc.devRef .tc main_v1) = W (Proc.devRef .tc main_v1) := by
  after_results
theorem keep_dst : StableHlo.after hostOps1 W (Proc.devRef .tc main_v3) = W (Proc.devRef .tc main_v3) := by
  after_results
theorem keep_arg0 : StableHlo.after hostOps1 W (Proc.devRef .tc main_arg0) = W (Proc.devRef .tc main_arg0) := by
  after_results
theorem keep_arg1 : StableHlo.after hostOps1 W (Proc.devRef .tc main_arg1) = W (Proc.devRef .tc main_arg1) := by
  after_results
theorem keep_arg2 : StableHlo.after hostOps1 W (Proc.devRef .tc main_arg2) = W (Proc.devRef .tc main_arg2) := by
  after_results
theorem keep_arg3 : StableHlo.after hostOps1 W (Proc.devRef .tc main_arg3) = W (Proc.devRef .tc main_arg3) := by
  after_results
theorem keep_arg4 : StableHlo.after hostOps1 W (Proc.devRef .tc main_arg4) = W (Proc.devRef .tc main_arg4) := by
  after_results
theorem keep_arg5 : StableHlo.after hostOps1 W (Proc.devRef .tc main_arg5) = W (Proc.devRef .tc main_arg5) := by
  after_results
theorem keep_arg6 : StableHlo.after hostOps1 W (Proc.devRef .tc main_arg6) = W (Proc.devRef .tc main_arg6) := by
  after_results
theorem keep_arg7 : StableHlo.after hostOps1 W (Proc.devRef .tc main_arg7) = W (Proc.devRef .tc main_arg7) := by
  after_results
theorem keep_arg8 : StableHlo.after hostOps1 W (Proc.devRef .tc main_arg8) = W (Proc.devRef .tc main_arg8) := by
  after_results
theorem keep_arg9 : StableHlo.after hostOps1 W (Proc.devRef .tc main_arg9) = W (Proc.devRef .tc main_arg9) := by
  after_results
theorem keep_arg10 : StableHlo.after hostOps1 W (Proc.devRef .tc main_arg10) = W (Proc.devRef .tc main_arg10) := by
  after_results
theorem keep_arg11 : StableHlo.after hostOps1 W (Proc.devRef .tc main_arg11) = W (Proc.devRef .tc main_arg11) := by
  after_results
theorem keep_arg12 : StableHlo.after hostOps1 W (Proc.devRef .tc main_arg12) = W (Proc.devRef .tc main_arg12) := by
  after_results
theorem keep_arg13 : StableHlo.after hostOps1 W (Proc.devRef .tc main_arg13) = W (Proc.devRef .tc main_arg13) := by
  after_results
theorem keep_arg14 : StableHlo.after hostOps1 W (Proc.devRef .tc main_arg14) = W (Proc.devRef .tc main_arg14) := by
  after_results
theorem keep_arg15 : StableHlo.after hostOps1 W (Proc.devRef .tc main_arg15) = W (Proc.devRef .tc main_arg15) := by
  after_results
theorem keep_arg16 : StableHlo.after hostOps1 W (Proc.devRef .tc main_arg16) = W (Proc.devRef .tc main_arg16) := by
  after_results
theorem keep_arg17 : StableHlo.after hostOps1 W (Proc.devRef .tc main_arg17) = W (Proc.devRef .tc main_arg17) := by
  after_results
theorem keep_arg18 : StableHlo.after hostOps1 W (Proc.devRef .tc main_arg18) = W (Proc.devRef .tc main_arg18) := by
  after_results
theorem keep_arg19 : StableHlo.after hostOps1 W (Proc.devRef .tc main_arg19) = W (Proc.devRef .tc main_arg19) := by
  after_results
theorem keep_arg20 : StableHlo.after hostOps1 W (Proc.devRef .tc main_arg20) = W (Proc.devRef .tc main_arg20) := by
  after_results
theorem keep_arg21 : StableHlo.after hostOps1 W (Proc.devRef .tc main_arg21) = W (Proc.devRef .tc main_arg21) := by
  after_results
theorem keep_arg22 : StableHlo.after hostOps1 W (Proc.devRef .tc main_arg22) = W (Proc.devRef .tc main_arg22) := by
  after_results
theorem keep_arg23 : StableHlo.after hostOps1 W (Proc.devRef .tc main_arg23) = W (Proc.devRef .tc main_arg23) := by
  after_results
theorem keep_arg24 : StableHlo.after hostOps1 W (Proc.devRef .tc main_arg24) = W (Proc.devRef .tc main_arg24) := by
  after_results
theorem keep_arg25 : StableHlo.after hostOps1 W (Proc.devRef .tc main_arg25) = W (Proc.devRef .tc main_arg25) := by
  after_results
theorem keep_arg26 : StableHlo.after hostOps1 W (Proc.devRef .tc main_arg26) = W (Proc.devRef .tc main_arg26) := by
  after_results
theorem keep_arg27 : StableHlo.after hostOps1 W (Proc.devRef .tc main_arg27) = W (Proc.devRef .tc main_arg27) := by
  after_results
theorem keep_arg28 : StableHlo.after hostOps1 W (Proc.devRef .tc main_arg28) = W (Proc.devRef .tc main_arg28) := by
  after_results
theorem keep_arg29 : StableHlo.after hostOps1 W (Proc.devRef .tc main_arg29) = W (Proc.devRef .tc main_arg29) := by
  after_results
theorem keep_arg30 : StableHlo.after hostOps1 W (Proc.devRef .tc main_arg30) = W (Proc.devRef .tc main_arg30) := by
  after_results

end Cert.KernelIdeal.Stretch1

end
-- ==== Proof.Stretch2.lean ====
/-
  The host operations between layer 2's and layer 3's kernel regions, read buffer by buffer.

  They sum the previous layer's output over incoming edges (gather at the edges' sources, scatter-add at their
  destinations: the reference's own stage, never opened) and copy the layer's four bias vectors into 1×64 arrays.
  The previous layer's output, the edge rows and every argument array are left as they were.
-/
import proofs.«150598_j2181843387146_1_alg».proof.Proof.Gen.KernelIdeal.Launch
import proofs.«150598_j2181843387146_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Stretch2

open Idealize.ShloMosaic Idealize.ShloMosaic.TcCoe Idealize.ShloMosaic.StableHlo Idealize.ShloMosaic.ValueIdx
open Cert.KernelIdeal Cert.KernelIdeal.Gen
open Cert.ReferenceIdeal.Read (val_main_v0 val_main_v1 val_main_v2 val_main_v3)

variable (W : Valuation τ sig (Elt Ideal))

set_option maxHeartbeats 1000000 in
/-- The previous layer's output summed over incoming edges, when that output and the edge rows are the reference's. -/
theorem edgeSum (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal))
    (hh : W (Proc.devRef .tc main_v33) = Cert.ReferenceIdeal.Read.val_main_v63 (F := Ideal) x0 x1 x3 x4 x5 x6 x7 x8 x9 x10 x11 x12 x13 x14 x15 x16 x17 x18)
    (hsrc : W (Proc.devRef .tc main_v1) = Cert.ReferenceIdeal.Read.val_main_v1 (F := Ideal) x1)
    (hdst : W (Proc.devRef .tc main_v3) = Cert.ReferenceIdeal.Read.val_main_v3 (F := Ideal) x1) :
    StableHlo.after hostOps2 W (Proc.devRef .tc main_v43) = Cert.ReferenceIdeal.Read.val_main_v77 (F := Ideal) x0 x1 x3 x4 x5 x6 x7 x8 x9 x10 x11 x12 x13 x14 x15 x16 x17 x18 := by
  after_results_simp
  rw [hh, hsrc, hdst]
  unfold Cert.ReferenceIdeal.Read.val_main_v77 Cert.ReferenceIdeal.Read.val_main_v76 Cert.ReferenceIdeal.Read.val_main_v75 Cert.ReferenceIdeal.Read.val_main_cst_6 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_c_5 Cert.ReferenceIdeal.Read.val_main_v69 Cert.ReferenceIdeal.Read.val_main_v68 Cert.ReferenceIdeal.Read.val_main_c_4
  rfl
/-- Bias row: the 1×64 copy of a 64-vector, read at row 0, column `q`, is the vector's entry `q`. -/
theorem bias44 (q : Fin 64) : StableHlo.after hostOps2 W (Proc.devRef .tc main_v44) (ix2 0 q) = W (Proc.devRef .tc main_arg22) (ix1 q) := by
  have e : StableHlo.after hostOps2 W (Proc.devRef .tc main_v44) = shapeCast S1x64 (W (Proc.devRef .tc main_arg22)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias45 (q : Fin 64) : StableHlo.after hostOps2 W (Proc.devRef .tc main_v45) (ix2 0 q) = W (Proc.devRef .tc main_arg20) (ix1 q) := by
  have e : StableHlo.after hostOps2 W (Proc.devRef .tc main_v45) = shapeCast S1x64 (W (Proc.devRef .tc main_arg20)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias46 (q : Fin 64) : StableHlo.after hostOps2 W (Proc.devRef .tc main_v46) (ix2 0 q) = W (Proc.devRef .tc main_arg24) (ix1 q) := by
  have e : StableHlo.after hostOps2 W (Proc.devRef .tc main_v46) = shapeCast S1x64 (W (Proc.devRef .tc main_arg24)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega
/-- Bias row: the 1×64 copy of a 64-vector, read at row 0, column `q`, is the vector's entry `q`. -/
theorem bias47 (q : Fin 64) : StableHlo.after hostOps2 W (Proc.devRef .tc main_v47) (ix2 0 q) = W (Proc.devRef .tc main_arg26) (ix1 q) := by
  have e : StableHlo.after hostOps2 W (Proc.devRef .tc main_v47) = shapeCast S1x64 (W (Proc.devRef .tc main_arg26)) shapeCasts_S64_S1x64 := by
    after_results; rfl
  rw [e]
  refine shapeCast_apply _ shapeCasts_S64_S1x64 (ix2 0 q) (ix1 q) ?_
  rw [Shape.rowMajor_val_one, Shape.rowMajor_val_two]
  show q.val = 0 * 64 + q.val
  omega

/-! What is not written. -/
theorem keep_h : StableHlo.after hostOps2 W (Proc.devRef .tc main_v33) = W (Proc.devRef .tc main_v33) := by
  after_results
theorem keep_src : StableHlo.after hostOps2 W (Proc.devRef .tc main_v1) = W (Proc.devRef .tc main_v1) := by
  after_results
theorem keep_dst : StableHlo.after hostOps2 W (Proc.devRef .tc main_v3) = W (Proc.devRef .tc main_v3) := by
  after_results
theorem keep_arg0 : StableHlo.after hostOps2 W (Proc.devRef .tc main_arg0) = W (Proc.devRef .tc main_arg0) := by
  after_results
theorem keep_arg1 : StableHlo.after hostOps2 W (Proc.devRef .tc main_arg1) = W (Proc.devRef .tc main_arg1) := by
  after_results
theorem keep_arg2 : StableHlo.after hostOps2 W (Proc.devRef .tc main_arg2) = W (Proc.devRef .tc main_arg2) := by
  after_results
theorem keep_arg3 : StableHlo.after hostOps2 W (Proc.devRef .tc main_arg3) = W (Proc.devRef .tc main_arg3) := by
  after_results
theorem keep_arg4 : StableHlo.after hostOps2 W (Proc.devRef .tc main_arg4) = W (Proc.devRef .tc main_arg4) := by
  after_results
theorem keep_arg5 : StableHlo.after hostOps2 W (Proc.devRef .tc main_arg5) = W (Proc.devRef .tc main_arg5) := by
  after_results
theorem keep_arg6 : StableHlo.after hostOps2 W (Proc.devRef .tc main_arg6) = W (Proc.devRef .tc main_arg6) := by
  after_results
theorem keep_arg7 : StableHlo.after hostOps2 W (Proc.devRef .tc main_arg7) = W (Proc.devRef .tc main_arg7) := by
  after_results
theorem keep_arg8 : StableHlo.after hostOps2 W (Proc.devRef .tc main_arg8) = W (Proc.devRef .tc main_arg8) := by
  after_results
theorem keep_arg9 : StableHlo.after hostOps2 W (Proc.devRef .tc main_arg9) = W (Proc.devRef .tc main_arg9) := by
  after_results
theorem keep_arg10 : StableHlo.after hostOps2 W (Proc.devRef .tc main_arg10) = W (Proc.devRef .tc main_arg10) := by
  after_results
theorem keep_arg11 : StableHlo.after hostOps2 W (Proc.devRef .tc main_arg11) = W (Proc.devRef .tc main_arg11) := by
  after_results
theorem keep_arg12 : StableHlo.after hostOps2 W (Proc.devRef .tc main_arg12) = W (Proc.devRef .tc main_arg12) := by
  after_results
theorem keep_arg13 : StableHlo.after hostOps2 W (Proc.devRef .tc main_arg13) = W (Proc.devRef .tc main_arg13) := by
  after_results
theorem keep_arg14 : StableHlo.after hostOps2 W (Proc.devRef .tc main_arg14) = W (Proc.devRef .tc main_arg14) := by
  after_results
theorem keep_arg15 : StableHlo.after hostOps2 W (Proc.devRef .tc main_arg15) = W (Proc.devRef .tc main_arg15) := by
  after_results
theorem keep_arg16 : StableHlo.after hostOps2 W (Proc.devRef .tc main_arg16) = W (Proc.devRef .tc main_arg16) := by
  after_results
theorem keep_arg17 : StableHlo.after hostOps2 W (Proc.devRef .tc main_arg17) = W (Proc.devRef .tc main_arg17) := by
  after_results
theorem keep_arg18 : StableHlo.after hostOps2 W (Proc.devRef .tc main_arg18) = W (Proc.devRef .tc main_arg18) := by
  after_results
theorem keep_arg19 : StableHlo.after hostOps2 W (Proc.devRef .tc main_arg19) = W (Proc.devRef .tc main_arg19) := by
  after_results
theorem keep_arg20 : StableHlo.after hostOps2 W (Proc.devRef .tc main_arg20) = W (Proc.devRef .tc main_arg20) := by
  after_results
theorem keep_arg21 : StableHlo.after hostOps2 W (Proc.devRef .tc main_arg21) = W (Proc.devRef .tc main_arg21) := by
  after_results
theorem keep_arg22 : StableHlo.after hostOps2 W (Proc.devRef .tc main_arg22) = W (Proc.devRef .tc main_arg22) := by
  after_results
theorem keep_arg23 : StableHlo.after hostOps2 W (Proc.devRef .tc main_arg23) = W (Proc.devRef .tc main_arg23) := by
  after_results
theorem keep_arg24 : StableHlo.after hostOps2 W (Proc.devRef .tc main_arg24) = W (Proc.devRef .tc main_arg24) := by
  after_results
theorem keep_arg25 : StableHlo.after hostOps2 W (Proc.devRef .tc main_arg25) = W (Proc.devRef .tc main_arg25) := by
  after_results
theorem keep_arg26 : StableHlo.after hostOps2 W (Proc.devRef .tc main_arg26) = W (Proc.devRef .tc main_arg26) := by
  after_results
theorem keep_arg27 : StableHlo.after hostOps2 W (Proc.devRef .tc main_arg27) = W (Proc.devRef .tc main_arg27) := by
  after_results
theorem keep_arg28 : StableHlo.after hostOps2 W (Proc.devRef .tc main_arg28) = W (Proc.devRef .tc main_arg28) := by
  after_results
theorem keep_arg29 : StableHlo.after hostOps2 W (Proc.devRef .tc main_arg29) = W (Proc.devRef .tc main_arg29) := by
  after_results
theorem keep_arg30 : StableHlo.after hostOps2 W (Proc.devRef .tc main_arg30) = W (Proc.devRef .tc main_arg30) := by
  after_results

end Cert.KernelIdeal.Stretch2

end
-- ==== Proof.Stretch3.lean ====
/-
  The host operations after the third layer's kernel region: mean pooling over graphs and the two dense layers.

  Both programs apply the same operations to the third layer's output — a scatter-add of the rows by graph id, the
  same scatter-add of ones for the counts, a maximum with one, a division, and two products with bias — so the
  closing stretch is carried as the reference's own composed stage applied to the layer's output; it is never opened.
-/
import proofs.«150598_j2181843387146_1_alg».proof.Proof.Gen.KernelIdeal.Launch
import proofs.«150598_j2181843387146_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Stretch3

open Idealize.ShloMosaic Idealize.ShloMosaic.TcCoe Idealize.ShloMosaic.StableHlo Idealize.ShloMosaic.ValueIdx
open Cert.KernelIdeal Cert.KernelIdeal.Gen
open Cert.ReferenceIdeal.Read (val_main_v0 val_main_v1 val_main_v2 val_main_v3)

variable (W : Valuation τ sig (Elt Ideal))

set_option maxHeartbeats 1000000 in
/-- The result, when the third layer's output is the reference's. -/
theorem result (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal))
    (hh : W (Proc.devRef .tc main_v48) = Cert.ReferenceIdeal.Read.val_main_v93 (F := Ideal) x0 x1 x3 x4 x5 x6 x7 x8 x9 x10 x11 x12 x13 x14 x15 x16 x17 x18 x19 x20 x21 x22 x23 x24 x25 x26) :
    StableHlo.after hostOps3 W (Proc.devRef .tc main_v67) = Cert.ReferenceIdeal.Read.val_main_v112 (F := Ideal) x0 x1 (W (Proc.devRef .tc main_arg2)) x3 x4 x5 x6 x7 x8 x9 x10 x11 x12 x13 x14 x15 x16 x17 x18 x19 x20 x21 x22 x23 x24 x25 x26 (W (Proc.devRef .tc main_arg27)) (W (Proc.devRef .tc main_arg28)) (W (Proc.devRef .tc main_arg29)) (W (Proc.devRef .tc main_arg30)) := by
  after_results_simp
  rw [hh]
  unfold Cert.ReferenceIdeal.Read.val_main_v112 Cert.ReferenceIdeal.Read.val_main_v111 Cert.ReferenceIdeal.Read.val_main_v110 Cert.ReferenceIdeal.Read.val_main_v109 Cert.ReferenceIdeal.Read.val_main_v108 Cert.ReferenceIdeal.Read.val_main_v107 Cert.ReferenceIdeal.Read.val_main_v106 Cert.ReferenceIdeal.Read.val_main_v105 Cert.ReferenceIdeal.Read.val_main_v104 Cert.ReferenceIdeal.Read.val_main_v103 Cert.ReferenceIdeal.Read.val_main_v102 Cert.ReferenceIdeal.Read.val_main_v101 Cert.ReferenceIdeal.Read.val_main_cst_10 Cert.ReferenceIdeal.Read.val_main_v100 Cert.ReferenceIdeal.Read.val_main_v99 Cert.ReferenceIdeal.Read.val_main_v98 Cert.ReferenceIdeal.Read.val_main_cst_9 Cert.ReferenceIdeal.Read.val_main_v97 Cert.ReferenceIdeal.Read.val_main_cst_8 Cert.ReferenceIdeal.Read.val_main_v96 Cert.ReferenceIdeal.Read.val_main_v95 Cert.ReferenceIdeal.Read.val_main_v94 Cert.ReferenceIdeal.Read.val_main_cst_7
  rfl

end Cert.KernelIdeal.Stretch3

end
-- ==== Proof.RefLayers.lean ====
/-
  The reference, layer by layer.

  The reference computes each layer with whole-array host operations: four products of a 100000×64 array with a
  64×64 weight matrix, each plus a bias row spread over all rows, combined as `(a + c) + b * d` and clipped below at
  zero.  Read at row `r`, column `q`, a product is the sum over `k` of `x (r, k) * W (k, q)` and a spread bias is the
  bias entry `q`, so the layer's output is `Layer.out` of its input `h`, the edge sums `s` of that input (left as the
  reference's own gather-and-scatter stage, never opened), and the layer's four weight matrices and four biases.
-/
import proofs.«150598_j2181843387146_1_alg».proof.Proof.Gen.ReferenceIdeal.Read
import proofs.«150598_j2181843387146_1_alg».proof.Proof.Layer

set_option maxRecDepth 16384

noncomputable section

namespace Cert.ReferenceIdeal.Layers

open Idealize.ShloMosaic Idealize.ShloMosaic.ValueIdx Cert.ReferenceIdeal Cert.ReferenceIdeal.Read

/-- Layer 1 of the reference: its relu output is `Layer.out` of the layer's input, the edge sums of that input, and
    the layer's weights and biases. -/
theorem layer1 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v33 (F := Ideal) x0 x1 x3 x4 x5 x6 x7 x8 x9 x10
      = Cert.Layer.out x0 (val_main_v17 (F := Ideal) x0 x1) x5 x3 x7 x9
          (fun q => x6 (ix1 q)) (fun q => x4 (ix1 q)) (fun q => x8 (ix1 q)) (fun q => x10 (ix1 q)) := by
  funext i
  obtain ⟨r, q, rfl⟩ : ∃ (r : Fin 100000) (q : Fin 64), i = ix2 r q := ⟨i 0, i 1, eq_ix2 i⟩
  rw [Cert.Layer.out_ix2]
  have elA : ∀ k : Fin 64, lidx_main_v4 (ix2 r q) k = ix2 r k := fun k => funext fun a => Fin.ext (by match a with | ⟨0, _⟩ => rfl | ⟨1, _⟩ => rfl)
  have erA : ∀ k : Fin 64, ridx_main_v4 (ix2 r q) k = ix2 k q := fun k => funext fun a => Fin.ext (by match a with | ⟨0, _⟩ => rfl | ⟨1, _⟩ => rfl)
  have elC : ∀ k : Fin 64, lidx_main_v18 (ix2 r q) k = ix2 r k := fun k => funext fun a => Fin.ext (by match a with | ⟨0, _⟩ => rfl | ⟨1, _⟩ => rfl)
  have erC : ∀ k : Fin 64, ridx_main_v18 (ix2 r q) k = ix2 k q := fun k => funext fun a => Fin.ext (by match a with | ⟨0, _⟩ => rfl | ⟨1, _⟩ => rfl)
  have elB : ∀ k : Fin 64, lidx_main_v23 (ix2 r q) k = ix2 r k := fun k => funext fun a => Fin.ext (by match a with | ⟨0, _⟩ => rfl | ⟨1, _⟩ => rfl)
  have erB : ∀ k : Fin 64, ridx_main_v23 (ix2 r q) k = ix2 k q := fun k => funext fun a => Fin.ext (by match a with | ⟨0, _⟩ => rfl | ⟨1, _⟩ => rfl)
  have elD : ∀ k : Fin 64, lidx_main_v27 (ix2 r q) k = ix2 r k := fun k => funext fun a => Fin.ext (by match a with | ⟨0, _⟩ => rfl | ⟨1, _⟩ => rfl)
  have erD : ∀ k : Fin 64, ridx_main_v27 (ix2 r q) k = ix2 k q := fun k => funext fun a => Fin.ext (by match a with | ⟨0, _⟩ => rfl | ⟨1, _⟩ => rfl)
  have ebA : idx_main_v5 (idx_main_v6 (ix2 r q)) = ix1 q := funext fun a => Fin.ext (by match a with | ⟨0, _⟩ => rfl)
  have ebC : idx_main_v19 (idx_main_v20 (ix2 r q)) = ix1 q := funext fun a => Fin.ext (by match a with | ⟨0, _⟩ => rfl)
  have ebB : idx_main_v24 (idx_main_v25 (ix2 r q)) = ix1 q := funext fun a => Fin.ext (by match a with | ⟨0, _⟩ => rfl)
  have ebD : idx_main_v28 (idx_main_v29 (ix2 r q)) = ix1 q := funext fun a => Fin.ext (by match a with | ⟨0, _⟩ => rfl)
  rw [val_main_v33_apply, val_main_v32_apply, val_main_v22_apply, val_main_v7_apply, val_main_v4_apply, val_main_v6_apply, val_main_v5_apply, val_main_v21_apply, val_main_v18_apply, val_main_v20_apply, val_main_v19_apply, val_main_v31_apply, val_main_v26_apply, val_main_v23_apply, val_main_v25_apply, val_main_v24_apply, val_main_v30_apply, val_main_v27_apply, val_main_v29_apply, val_main_v28_apply, val_main_call0_v0_apply, val_main_call0_cst_apply]
  unfold Cert.Layer.entry Cert.Layer.rowDot
  simp only [elA, erA, elC, erC, elB, erB, elD, erD, ebA, ebC, ebB, ebD, Ideal.addf_def, Ideal.mulf_def, Ideal.maximumf_def,
    Ideal.ofBits_def, Ideal.ofBits_zero_f32]

/-- Layer 2 of the reference: its relu output is `Layer.out` of the layer's input, the edge sums of that input, and
    the layer's weights and biases. -/
theorem layer2 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) :
    val_main_v63 (F := Ideal) x0 x1 x3 x4 x5 x6 x7 x8 x9 x10 x11 x12 x13 x14 x15 x16 x17 x18
      = Cert.Layer.out (val_main_v33 (F := Ideal) x0 x1 x3 x4 x5 x6 x7 x8 x9 x10) (val_main_v47 (F := Ideal) x0 x1 x3 x4 x5 x6 x7 x8 x9 x10) x13 x11 x15 x17
          (fun q => x14 (ix1 q)) (fun q => x12 (ix1 q)) (fun q => x16 (ix1 q)) (fun q => x18 (ix1 q)) := by
  funext i
  obtain ⟨r, q, rfl⟩ : ∃ (r : Fin 100000) (q : Fin 64), i = ix2 r q := ⟨i 0, i 1, eq_ix2 i⟩
  rw [Cert.Layer.out_ix2]
  have elA : ∀ k : Fin 64, lidx_main_v34 (ix2 r q) k = ix2 r k := fun k => funext fun a => Fin.ext (by match a with | ⟨0, _⟩ => rfl | ⟨1, _⟩ => rfl)
  have erA : ∀ k : Fin 64, ridx_main_v34 (ix2 r q) k = ix2 k q := fun k => funext fun a => Fin.ext (by match a with | ⟨0, _⟩ => rfl | ⟨1, _⟩ => rfl)
  have elC : ∀ k : Fin 64, lidx_main_v48 (ix2 r q) k = ix2 r k := fun k => funext fun a => Fin.ext (by match a with | ⟨0, _⟩ => rfl | ⟨1, _⟩ => rfl)
  have erC : ∀ k : Fin 64, ridx_main_v48 (ix2 r q) k = ix2 k q := fun k => funext fun a => Fin.ext (by match a with | ⟨0, _⟩ => rfl | ⟨1, _⟩ => rfl)
  have elB : ∀ k : Fin 64, lidx_main_v53 (ix2 r q) k = ix2 r k := fun k => funext fun a => Fin.ext (by match a with | ⟨0, _⟩ => rfl | ⟨1, _⟩ => rfl)
  have erB : ∀ k : Fin 64, ridx_main_v53 (ix2 r q) k = ix2 k q := fun k => funext fun a => Fin.ext (by match a with | ⟨0, _⟩ => rfl | ⟨1, _⟩ => rfl)
  have elD : ∀ k : Fin 64, lidx_main_v57 (ix2 r q) k = ix2 r k := fun k => funext fun a => Fin.ext (by match a with | ⟨0, _⟩ => rfl | ⟨1, _⟩ => rfl)
  have erD : ∀ k : Fin 64, ridx_main_v57 (ix2 r q) k = ix2 k q := fun k => funext fun a => Fin.ext (by match a with | ⟨0, _⟩ => rfl | ⟨1, _⟩ => rfl)
  have ebA : idx_main_v35 (idx_main_v36 (ix2 r q)) = ix1 q := funext fun a => Fin.ext (by match a with | ⟨0, _⟩ => rfl)
  have ebC : idx_main_v49 (idx_main_v50 (ix2 r q)) = ix1 q := funext fun a => Fin.ext (by match a with | ⟨0, _⟩ => rfl)
  have ebB : idx_main_v54 (idx_main_v55 (ix2 r q)) = ix1 q := funext fun a => Fin.ext (by match a with | ⟨0, _⟩ => rfl)
  have ebD : idx_main_v58 (idx_main_v59 (ix2 r q)) = ix1 q := funext fun a => Fin.ext (by match a with | ⟨0, _⟩ => rfl)
  rw [val_main_v63_apply, val_main_v62_apply, val_main_v52_apply, val_main_v37_apply, val_main_v34_apply, val_main_v36_apply, val_main_v35_apply, val_main_v51_apply, val_main_v48_apply, val_main_v50_apply, val_main_v49_apply, val_main_v61_apply, val_main_v56_apply, val_main_v53_apply, val_main_v55_apply, val_main_v54_apply, val_main_v60_apply, val_main_v57_apply, val_main_v59_apply, val_main_v58_apply, val_main_call1_v0_apply, val_main_call1_cst_apply]
  unfold Cert.Layer.entry Cert.Layer.rowDot
  simp only [elA, erA, elC, erC, elB, erB, elD, erD, ebA, ebC, ebB, ebD, Ideal.addf_def, Ideal.mulf_def, Ideal.maximumf_def,
    Ideal.ofBits_def, Ideal.ofBits_zero_f32]

/-- Layer 3 of the reference: its relu output is `Layer.out` of the layer's input, the edge sums of that input, and
    the layer's weights and biases. -/
theorem layer3 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) :
    val_main_v93 (F := Ideal) x0 x1 x3 x4 x5 x6 x7 x8 x9 x10 x11 x12 x13 x14 x15 x16 x17 x18 x19 x20 x21 x22 x23 x24 x25 x26
      = Cert.Layer.out (val_main_v63 (F := Ideal) x0 x1 x3 x4 x5 x6 x7 x8 x9 x10 x11 x12 x13 x14 x15 x16 x17 x18) (val_main_v77 (F := Ideal) x0 x1 x3 x4 x5 x6 x7 x8 x9 x10 x11 x12 x13 x14 x15 x16 x17 x18) x21 x19 x23 x25
          (fun q => x22 (ix1 q)) (fun q => x20 (ix1 q)) (fun q => x24 (ix1 q)) (fun q => x26 (ix1 q)) := by
  funext i
  obtain ⟨r, q, rfl⟩ : ∃ (r : Fin 100000) (q : Fin 64), i = ix2 r q := ⟨i 0, i 1, eq_ix2 i⟩
  rw [Cert.Layer.out_ix2]
  have elA : ∀ k : Fin 64, lidx_main_v64 (ix2 r q) k = ix2 r k := fun k => funext fun a => Fin.ext (by match a with | ⟨0, _⟩ => rfl | ⟨1, _⟩ => rfl)
  have erA : ∀ k : Fin 64, ridx_main_v64 (ix2 r q) k = ix2 k q := fun k => funext fun a => Fin.ext (by match a with | ⟨0, _⟩ => rfl | ⟨1, _⟩ => rfl)
  have elC : ∀ k : Fin 64, lidx_main_v78 (ix2 r q) k = ix2 r k := fun k => funext fun a => Fin.ext (by match a with | ⟨0, _⟩ => rfl | ⟨1, _⟩ => rfl)
  have erC : ∀ k : Fin 64, ridx_main_v78 (ix2 r q) k = ix2 k q := fun k => funext fun a => Fin.ext (by match a with | ⟨0, _⟩ => rfl | ⟨1, _⟩ => rfl)
  have elB : ∀ k : Fin 64, lidx_main_v83 (ix2 r q) k = ix2 r k := fun k => funext fun a => Fin.ext (by match a with | ⟨0, _⟩ => rfl | ⟨1, _⟩ => rfl)
  have erB : ∀ k : Fin 64, ridx_main_v83 (ix2 r q) k = ix2 k q := fun k => funext fun a => Fin.ext (by match a with | ⟨0, _⟩ => rfl | ⟨1, _⟩ => rfl)
  have elD : ∀ k : Fin 64, lidx_main_v87 (ix2 r q) k = ix2 r k := fun k => funext fun a => Fin.ext (by match a with | ⟨0, _⟩ => rfl | ⟨1, _⟩ => rfl)
  have erD : ∀ k : Fin 64, ridx_main_v87 (ix2 r q) k = ix2 k q := fun k => funext fun a => Fin.ext (by match a with | ⟨0, _⟩ => rfl | ⟨1, _⟩ => rfl)
  have ebA : idx_main_v65 (idx_main_v66 (ix2 r q)) = ix1 q := funext fun a => Fin.ext (by match a with | ⟨0, _⟩ => rfl)
  have ebC : idx_main_v79 (idx_main_v80 (ix2 r q)) = ix1 q := funext fun a => Fin.ext (by match a with | ⟨0, _⟩ => rfl)
  have ebB : idx_main_v84 (idx_main_v85 (ix2 r q)) = ix1 q := funext fun a => Fin.ext (by match a with | ⟨0, _⟩ => rfl)
  have ebD : idx_main_v88 (idx_main_v89 (ix2 r q)) = ix1 q := funext fun a => Fin.ext (by match a with | ⟨0, _⟩ => rfl)
  rw [val_main_v93_apply, val_main_v92_apply, val_main_v82_apply, val_main_v67_apply, val_main_v64_apply, val_main_v66_apply, val_main_v65_apply, val_main_v81_apply, val_main_v78_apply, val_main_v80_apply, val_main_v79_apply, val_main_v91_apply, val_main_v86_apply, val_main_v83_apply, val_main_v85_apply, val_main_v84_apply, val_main_v90_apply, val_main_v87_apply, val_main_v89_apply, val_main_v88_apply, val_main_call2_v0_apply, val_main_call2_cst_apply]
  unfold Cert.Layer.entry Cert.Layer.rowDot
  simp only [elA, erA, elC, erC, elB, erB, elD, erD, ebA, ebC, ebB, ebD, Ideal.addf_def, Ideal.mulf_def, Ideal.maximumf_def,
    Ideal.ofBits_def, Ideal.ofBits_zero_f32]

end Cert.ReferenceIdeal.Layers

end
-- ==== Proof.Fold.lean ====
/-
  The kernel program's result buffer, read back through the boundary fold.

  Stage by stage: the opening stretch leaves `x` summed over incoming edges and the first layer's bias rows; the
  first region leaves the first layer's output, which is the reference's first relu stage (the region's array is
  `Layer.out` of what it found, and so is the reference's stage); the next stretch sums that output over the same
  edges, the second region leaves the reference's second relu stage, and likewise the third; the closing stretch
  is the reference's pooling and dense layers applied to it.  A stretch leaves alone what it does not write and a
  region leaves alone every array that is not one of its windows, which is how the edge rows and the later layers'
  weights reach the stage that reads them.
-/
import proofs.«150598_j2181843387146_1_alg».proof.Proof.Gen.KernelIdeal.Frame
import proofs.«150598_j2181843387146_1_alg».proof.Proof.Region0
import proofs.«150598_j2181843387146_1_alg».proof.Proof.Region1
import proofs.«150598_j2181843387146_1_alg».proof.Proof.Region2
import proofs.«150598_j2181843387146_1_alg».proof.Proof.Stretch0
import proofs.«150598_j2181843387146_1_alg».proof.Proof.Stretch1
import proofs.«150598_j2181843387146_1_alg».proof.Proof.Stretch2
import proofs.«150598_j2181843387146_1_alg».proof.Proof.Stretch3
import proofs.«150598_j2181843387146_1_alg».proof.Proof.RefLayers

set_option maxRecDepth 16384

noncomputable section

namespace Cert.KernelIdeal.Fold

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## After the opening stretch -/

theorem w1_arg0 : W1 m ρ c (Proc.devRef .tc main_arg0) = (m ((c : Thread nD τ).loc main_arg0)) :=
  (Cert.KernelIdeal.Stretch0.keep_arg0 (W0 m ρ c)).trans rfl
theorem w1_arg5 : W1 m ρ c (Proc.devRef .tc main_arg5) = (m ((c : Thread nD τ).loc main_arg5)) :=
  (Cert.KernelIdeal.Stretch0.keep_arg5 (W0 m ρ c)).trans rfl
theorem w1_arg3 : W1 m ρ c (Proc.devRef .tc main_arg3) = (m ((c : Thread nD τ).loc main_arg3)) :=
  (Cert.KernelIdeal.Stretch0.keep_arg3 (W0 m ρ c)).trans rfl
theorem w1_arg7 : W1 m ρ c (Proc.devRef .tc main_arg7) = (m ((c : Thread nD τ).loc main_arg7)) :=
  (Cert.KernelIdeal.Stretch0.keep_arg7 (W0 m ρ c)).trans rfl
theorem w1_arg9 : W1 m ρ c (Proc.devRef .tc main_arg9) = (m ((c : Thread nD τ).loc main_arg9)) :=
  (Cert.KernelIdeal.Stretch0.keep_arg9 (W0 m ρ c)).trans rfl
theorem w1_arg11 : W1 m ρ c (Proc.devRef .tc main_arg11) = (m ((c : Thread nD τ).loc main_arg11)) :=
  (Cert.KernelIdeal.Stretch0.keep_arg11 (W0 m ρ c)).trans rfl
theorem w1_arg12 : W1 m ρ c (Proc.devRef .tc main_arg12) = (m ((c : Thread nD τ).loc main_arg12)) :=
  (Cert.KernelIdeal.Stretch0.keep_arg12 (W0 m ρ c)).trans rfl
theorem w1_arg13 : W1 m ρ c (Proc.devRef .tc main_arg13) = (m ((c : Thread nD τ).loc main_arg13)) :=
  (Cert.KernelIdeal.Stretch0.keep_arg13 (W0 m ρ c)).trans rfl
theorem w1_arg14 : W1 m ρ c (Proc.devRef .tc main_arg14) = (m ((c : Thread nD τ).loc main_arg14)) :=
  (Cert.KernelIdeal.Stretch0.keep_arg14 (W0 m ρ c)).trans rfl
theorem w1_arg15 : W1 m ρ c (Proc.devRef .tc main_arg15) = (m ((c : Thread nD τ).loc main_arg15)) :=
  (Cert.KernelIdeal.Stretch0.keep_arg15 (W0 m ρ c)).trans rfl
theorem w1_arg16 : W1 m ρ c (Proc.devRef .tc main_arg16) = (m ((c : Thread nD τ).loc main_arg16)) :=
  (Cert.KernelIdeal.Stretch0.keep_arg16 (W0 m ρ c)).trans rfl
theorem w1_arg17 : W1 m ρ c (Proc.devRef .tc main_arg17) = (m ((c : Thread nD τ).loc main_arg17)) :=
  (Cert.KernelIdeal.Stretch0.keep_arg17 (W0 m ρ c)).trans rfl
theorem w1_arg18 : W1 m ρ c (Proc.devRef .tc main_arg18) = (m ((c : Thread nD τ).loc main_arg18)) :=
  (Cert.KernelIdeal.Stretch0.keep_arg18 (W0 m ρ c)).trans rfl
theorem w1_arg19 : W1 m ρ c (Proc.devRef .tc main_arg19) = (m ((c : Thread nD τ).loc main_arg19)) :=
  (Cert.KernelIdeal.Stretch0.keep_arg19 (W0 m ρ c)).trans rfl
theorem w1_arg20 : W1 m ρ c (Proc.devRef .tc main_arg20) = (m ((c : Thread nD τ).loc main_arg20)) :=
  (Cert.KernelIdeal.Stretch0.keep_arg20 (W0 m ρ c)).trans rfl
theorem w1_arg21 : W1 m ρ c (Proc.devRef .tc main_arg21) = (m ((c : Thread nD τ).loc main_arg21)) :=
  (Cert.KernelIdeal.Stretch0.keep_arg21 (W0 m ρ c)).trans rfl
theorem w1_arg22 : W1 m ρ c (Proc.devRef .tc main_arg22) = (m ((c : Thread nD τ).loc main_arg22)) :=
  (Cert.KernelIdeal.Stretch0.keep_arg22 (W0 m ρ c)).trans rfl
theorem w1_arg23 : W1 m ρ c (Proc.devRef .tc main_arg23) = (m ((c : Thread nD τ).loc main_arg23)) :=
  (Cert.KernelIdeal.Stretch0.keep_arg23 (W0 m ρ c)).trans rfl
theorem w1_arg24 : W1 m ρ c (Proc.devRef .tc main_arg24) = (m ((c : Thread nD τ).loc main_arg24)) :=
  (Cert.KernelIdeal.Stretch0.keep_arg24 (W0 m ρ c)).trans rfl
theorem w1_arg25 : W1 m ρ c (Proc.devRef .tc main_arg25) = (m ((c : Thread nD τ).loc main_arg25)) :=
  (Cert.KernelIdeal.Stretch0.keep_arg25 (W0 m ρ c)).trans rfl
theorem w1_arg26 : W1 m ρ c (Proc.devRef .tc main_arg26) = (m ((c : Thread nD τ).loc main_arg26)) :=
  (Cert.KernelIdeal.Stretch0.keep_arg26 (W0 m ρ c)).trans rfl
theorem w1_arg2 : W1 m ρ c (Proc.devRef .tc main_arg2) = (m ((c : Thread nD τ).loc main_arg2)) :=
  (Cert.KernelIdeal.Stretch0.keep_arg2 (W0 m ρ c)).trans rfl
theorem w1_arg27 : W1 m ρ c (Proc.devRef .tc main_arg27) = (m ((c : Thread nD τ).loc main_arg27)) :=
  (Cert.KernelIdeal.Stretch0.keep_arg27 (W0 m ρ c)).trans rfl
theorem w1_arg28 : W1 m ρ c (Proc.devRef .tc main_arg28) = (m ((c : Thread nD τ).loc main_arg28)) :=
  (Cert.KernelIdeal.Stretch0.keep_arg28 (W0 m ρ c)).trans rfl
theorem w1_arg29 : W1 m ρ c (Proc.devRef .tc main_arg29) = (m ((c : Thread nD τ).loc main_arg29)) :=
  (Cert.KernelIdeal.Stretch0.keep_arg29 (W0 m ρ c)).trans rfl
theorem w1_arg30 : W1 m ρ c (Proc.devRef .tc main_arg30) = (m ((c : Thread nD τ).loc main_arg30)) :=
  (Cert.KernelIdeal.Stretch0.keep_arg30 (W0 m ρ c)).trans rfl
theorem w1_src : W1 m ρ c (Proc.devRef .tc main_v1) = Cert.ReferenceIdeal.Read.val_main_v1 (F := Ideal) (m ((c : Thread nD τ).loc main_arg1)) :=
  Cert.KernelIdeal.Stretch0.src (W0 m ρ c)
theorem w1_dst : W1 m ρ c (Proc.devRef .tc main_v3) = Cert.ReferenceIdeal.Read.val_main_v3 (F := Ideal) (m ((c : Thread nD τ).loc main_arg1)) :=
  Cert.KernelIdeal.Stretch0.dst (W0 m ρ c)
theorem w1_sum : W1 m ρ c (Proc.devRef .tc main_v13) = Cert.ReferenceIdeal.Read.val_main_v17 (F := Ideal) (m ((c : Thread nD τ).loc main_arg0)) (m ((c : Thread nD τ).loc main_arg1)) :=
  Cert.KernelIdeal.Stretch0.edgeSum (W0 m ρ c)
theorem w1_b14 : ∀ q : Fin 64, W1 m ρ c (Proc.devRef .tc main_v14) (ix2 0 q) = (m ((c : Thread nD τ).loc main_arg6)) (ix1 q) :=
  Cert.KernelIdeal.Stretch0.bias14 (W0 m ρ c)
theorem w1_b15 : ∀ q : Fin 64, W1 m ρ c (Proc.devRef .tc main_v15) (ix2 0 q) = (m ((c : Thread nD τ).loc main_arg4)) (ix1 q) :=
  Cert.KernelIdeal.Stretch0.bias15 (W0 m ρ c)
theorem w1_b16 : ∀ q : Fin 64, W1 m ρ c (Proc.devRef .tc main_v16) (ix2 0 q) = (m ((c : Thread nD τ).loc main_arg8)) (ix1 q) :=
  Cert.KernelIdeal.Stretch0.bias16 (W0 m ρ c)
theorem w1_b17 : ∀ q : Fin 64, W1 m ρ c (Proc.devRef .tc main_v17) (ix2 0 q) = (m ((c : Thread nD τ).loc main_arg10)) (ix1 q) :=
  Cert.KernelIdeal.Stretch0.bias17 (W0 m ρ c)
theorem w1_h : W1 m ρ c (Proc.devRef .tc main_arg0) = (m ((c : Thread nD τ).loc main_arg0)) :=
  w1_arg0 m ρ c

/-! ## After layer 1's region -/

/-- Layer 1's output array is the reference's relu stage of layer 1. -/
theorem w2_out : W2 m ρ c (Proc.devRef .tc main_v18) = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 10).trans ((Cert.KernelIdeal.Region0.final (V1 m ρ) c).trans ?_)
  unfold Cert.KernelIdeal.Region0.whole
  show Cert.Layer.out (W1 m ρ c (Proc.devRef .tc main_arg0)) (W1 m ρ c (Proc.devRef .tc main_v13)) (W1 m ρ c (Proc.devRef .tc main_arg5)) (W1 m ρ c (Proc.devRef .tc main_arg3)) (W1 m ρ c (Proc.devRef .tc main_arg7)) (W1 m ρ c (Proc.devRef .tc main_arg9))
      (fun q => W1 m ρ c (Proc.devRef .tc main_v14) (ix2 0 q)) (fun q => W1 m ρ c (Proc.devRef .tc main_v15) (ix2 0 q)) (fun q => W1 m ρ c (Proc.devRef .tc main_v16) (ix2 0 q)) (fun q => W1 m ρ c (Proc.devRef .tc main_v17) (ix2 0 q)) = _
  rw [w1_h, w1_sum, w1_arg5, w1_arg3, w1_arg7, w1_arg9]
  simp only [w1_b14 m ρ c, w1_b15 m ρ c, w1_b16 m ρ c, w1_b17 m ρ c]
  exact (Cert.ReferenceIdeal.Layers.layer1 _ _ _ _ _ _ _ _ _ _).symm
theorem w2_src : W2 m ρ c (Proc.devRef .tc main_v1) = Cert.ReferenceIdeal.Read.val_main_v1 (F := Ideal) (m ((c : Thread nD τ).loc main_arg1)) :=
  (W2_of_ne m ρ c main_v1 (by decide)).trans (w1_src m ρ c)
theorem w2_dst : W2 m ρ c (Proc.devRef .tc main_v3) = Cert.ReferenceIdeal.Read.val_main_v3 (F := Ideal) (m ((c : Thread nD τ).loc main_arg1)) :=
  (W2_of_ne m ρ c main_v3 (by decide)).trans (w1_dst m ρ c)
theorem w2_arg11 : W2 m ρ c (Proc.devRef .tc main_arg11) = (m ((c : Thread nD τ).loc main_arg11)) :=
  (W2_of_ne m ρ c main_arg11 (by decide)).trans (w1_arg11 m ρ c)
theorem w2_arg12 : W2 m ρ c (Proc.devRef .tc main_arg12) = (m ((c : Thread nD τ).loc main_arg12)) :=
  (W2_of_ne m ρ c main_arg12 (by decide)).trans (w1_arg12 m ρ c)
theorem w2_arg13 : W2 m ρ c (Proc.devRef .tc main_arg13) = (m ((c : Thread nD τ).loc main_arg13)) :=
  (W2_of_ne m ρ c main_arg13 (by decide)).trans (w1_arg13 m ρ c)
theorem w2_arg14 : W2 m ρ c (Proc.devRef .tc main_arg14) = (m ((c : Thread nD τ).loc main_arg14)) :=
  (W2_of_ne m ρ c main_arg14 (by decide)).trans (w1_arg14 m ρ c)
theorem w2_arg15 : W2 m ρ c (Proc.devRef .tc main_arg15) = (m ((c : Thread nD τ).loc main_arg15)) :=
  (W2_of_ne m ρ c main_arg15 (by decide)).trans (w1_arg15 m ρ c)
theorem w2_arg16 : W2 m ρ c (Proc.devRef .tc main_arg16) = (m ((c : Thread nD τ).loc main_arg16)) :=
  (W2_of_ne m ρ c main_arg16 (by decide)).trans (w1_arg16 m ρ c)
theorem w2_arg17 : W2 m ρ c (Proc.devRef .tc main_arg17) = (m ((c : Thread nD τ).loc main_arg17)) :=
  (W2_of_ne m ρ c main_arg17 (by decide)).trans (w1_arg17 m ρ c)
theorem w2_arg18 : W2 m ρ c (Proc.devRef .tc main_arg18) = (m ((c : Thread nD τ).loc main_arg18)) :=
  (W2_of_ne m ρ c main_arg18 (by decide)).trans (w1_arg18 m ρ c)
theorem w2_arg19 : W2 m ρ c (Proc.devRef .tc main_arg19) = (m ((c : Thread nD τ).loc main_arg19)) :=
  (W2_of_ne m ρ c main_arg19 (by decide)).trans (w1_arg19 m ρ c)
theorem w2_arg20 : W2 m ρ c (Proc.devRef .tc main_arg20) = (m ((c : Thread nD τ).loc main_arg20)) :=
  (W2_of_ne m ρ c main_arg20 (by decide)).trans (w1_arg20 m ρ c)
theorem w2_arg21 : W2 m ρ c (Proc.devRef .tc main_arg21) = (m ((c : Thread nD τ).loc main_arg21)) :=
  (W2_of_ne m ρ c main_arg21 (by decide)).trans (w1_arg21 m ρ c)
theorem w2_arg22 : W2 m ρ c (Proc.devRef .tc main_arg22) = (m ((c : Thread nD τ).loc main_arg22)) :=
  (W2_of_ne m ρ c main_arg22 (by decide)).trans (w1_arg22 m ρ c)
theorem w2_arg23 : W2 m ρ c (Proc.devRef .tc main_arg23) = (m ((c : Thread nD τ).loc main_arg23)) :=
  (W2_of_ne m ρ c main_arg23 (by decide)).trans (w1_arg23 m ρ c)
theorem w2_arg24 : W2 m ρ c (Proc.devRef .tc main_arg24) = (m ((c : Thread nD τ).loc main_arg24)) :=
  (W2_of_ne m ρ c main_arg24 (by decide)).trans (w1_arg24 m ρ c)
theorem w2_arg25 : W2 m ρ c (Proc.devRef .tc main_arg25) = (m ((c : Thread nD τ).loc main_arg25)) :=
  (W2_of_ne m ρ c main_arg25 (by decide)).trans (w1_arg25 m ρ c)
theorem w2_arg26 : W2 m ρ c (Proc.devRef .tc main_arg26) = (m ((c : Thread nD τ).loc main_arg26)) :=
  (W2_of_ne m ρ c main_arg26 (by decide)).trans (w1_arg26 m ρ c)
theorem w2_arg2 : W2 m ρ c (Proc.devRef .tc main_arg2) = (m ((c : Thread nD τ).loc main_arg2)) :=
  (W2_of_ne m ρ c main_arg2 (by decide)).trans (w1_arg2 m ρ c)
theorem w2_arg27 : W2 m ρ c (Proc.devRef .tc main_arg27) = (m ((c : Thread nD τ).loc main_arg27)) :=
  (W2_of_ne m ρ c main_arg27 (by decide)).trans (w1_arg27 m ρ c)
theorem w2_arg28 : W2 m ρ c (Proc.devRef .tc main_arg28) = (m ((c : Thread nD τ).loc main_arg28)) :=
  (W2_of_ne m ρ c main_arg28 (by decide)).trans (w1_arg28 m ρ c)
theorem w2_arg29 : W2 m ρ c (Proc.devRef .tc main_arg29) = (m ((c : Thread nD τ).loc main_arg29)) :=
  (W2_of_ne m ρ c main_arg29 (by decide)).trans (w1_arg29 m ρ c)
theorem w2_arg30 : W2 m ρ c (Proc.devRef .tc main_arg30) = (m ((c : Thread nD τ).loc main_arg30)) :=
  (W2_of_ne m ρ c main_arg30 (by decide)).trans (w1_arg30 m ρ c)

/-! ## After the second stretch -/

theorem w3_h : W3 m ρ c (Proc.devRef .tc main_v18) = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Cert.KernelIdeal.Stretch1.keep_h (W2 m ρ c)).trans (w2_out m ρ c)
theorem w3_src : W3 m ρ c (Proc.devRef .tc main_v1) = Cert.ReferenceIdeal.Read.val_main_v1 (F := Ideal) (m ((c : Thread nD τ).loc main_arg1)) :=
  (Cert.KernelIdeal.Stretch1.keep_src (W2 m ρ c)).trans (w2_src m ρ c)
theorem w3_dst : W3 m ρ c (Proc.devRef .tc main_v3) = Cert.ReferenceIdeal.Read.val_main_v3 (F := Ideal) (m ((c : Thread nD τ).loc main_arg1)) :=
  (Cert.KernelIdeal.Stretch1.keep_dst (W2 m ρ c)).trans (w2_dst m ρ c)
theorem w3_sum : W3 m ρ c (Proc.devRef .tc main_v28) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.KernelIdeal.Stretch1.edgeSum (W2 m ρ c) _ _ _ _ _ _ _ _ _ _ (w2_out m ρ c) (w2_src m ρ c) (w2_dst m ρ c)
theorem w3_arg13 : W3 m ρ c (Proc.devRef .tc main_arg13) = (m ((c : Thread nD τ).loc main_arg13)) :=
  (Cert.KernelIdeal.Stretch1.keep_arg13 (W2 m ρ c)).trans (w2_arg13 m ρ c)
theorem w3_arg11 : W3 m ρ c (Proc.devRef .tc main_arg11) = (m ((c : Thread nD τ).loc main_arg11)) :=
  (Cert.KernelIdeal.Stretch1.keep_arg11 (W2 m ρ c)).trans (w2_arg11 m ρ c)
theorem w3_arg15 : W3 m ρ c (Proc.devRef .tc main_arg15) = (m ((c : Thread nD τ).loc main_arg15)) :=
  (Cert.KernelIdeal.Stretch1.keep_arg15 (W2 m ρ c)).trans (w2_arg15 m ρ c)
theorem w3_arg17 : W3 m ρ c (Proc.devRef .tc main_arg17) = (m ((c : Thread nD τ).loc main_arg17)) :=
  (Cert.KernelIdeal.Stretch1.keep_arg17 (W2 m ρ c)).trans (w2_arg17 m ρ c)
theorem w3_arg19 : W3 m ρ c (Proc.devRef .tc main_arg19) = (m ((c : Thread nD τ).loc main_arg19)) :=
  (Cert.KernelIdeal.Stretch1.keep_arg19 (W2 m ρ c)).trans (w2_arg19 m ρ c)
theorem w3_arg20 : W3 m ρ c (Proc.devRef .tc main_arg20) = (m ((c : Thread nD τ).loc main_arg20)) :=
  (Cert.KernelIdeal.Stretch1.keep_arg20 (W2 m ρ c)).trans (w2_arg20 m ρ c)
theorem w3_arg21 : W3 m ρ c (Proc.devRef .tc main_arg21) = (m ((c : Thread nD τ).loc main_arg21)) :=
  (Cert.KernelIdeal.Stretch1.keep_arg21 (W2 m ρ c)).trans (w2_arg21 m ρ c)
theorem w3_arg22 : W3 m ρ c (Proc.devRef .tc main_arg22) = (m ((c : Thread nD τ).loc main_arg22)) :=
  (Cert.KernelIdeal.Stretch1.keep_arg22 (W2 m ρ c)).trans (w2_arg22 m ρ c)
theorem w3_arg23 : W3 m ρ c (Proc.devRef .tc main_arg23) = (m ((c : Thread nD τ).loc main_arg23)) :=
  (Cert.KernelIdeal.Stretch1.keep_arg23 (W2 m ρ c)).trans (w2_arg23 m ρ c)
theorem w3_arg24 : W3 m ρ c (Proc.devRef .tc main_arg24) = (m ((c : Thread nD τ).loc main_arg24)) :=
  (Cert.KernelIdeal.Stretch1.keep_arg24 (W2 m ρ c)).trans (w2_arg24 m ρ c)
theorem w3_arg25 : W3 m ρ c (Proc.devRef .tc main_arg25) = (m ((c : Thread nD τ).loc main_arg25)) :=
  (Cert.KernelIdeal.Stretch1.keep_arg25 (W2 m ρ c)).trans (w2_arg25 m ρ c)
theorem w3_arg26 : W3 m ρ c (Proc.devRef .tc main_arg26) = (m ((c : Thread nD τ).loc main_arg26)) :=
  (Cert.KernelIdeal.Stretch1.keep_arg26 (W2 m ρ c)).trans (w2_arg26 m ρ c)
theorem w3_arg2 : W3 m ρ c (Proc.devRef .tc main_arg2) = (m ((c : Thread nD τ).loc main_arg2)) :=
  (Cert.KernelIdeal.Stretch1.keep_arg2 (W2 m ρ c)).trans (w2_arg2 m ρ c)
theorem w3_arg27 : W3 m ρ c (Proc.devRef .tc main_arg27) = (m ((c : Thread nD τ).loc main_arg27)) :=
  (Cert.KernelIdeal.Stretch1.keep_arg27 (W2 m ρ c)).trans (w2_arg27 m ρ c)
theorem w3_arg28 : W3 m ρ c (Proc.devRef .tc main_arg28) = (m ((c : Thread nD τ).loc main_arg28)) :=
  (Cert.KernelIdeal.Stretch1.keep_arg28 (W2 m ρ c)).trans (w2_arg28 m ρ c)
theorem w3_arg29 : W3 m ρ c (Proc.devRef .tc main_arg29) = (m ((c : Thread nD τ).loc main_arg29)) :=
  (Cert.KernelIdeal.Stretch1.keep_arg29 (W2 m ρ c)).trans (w2_arg29 m ρ c)
theorem w3_arg30 : W3 m ρ c (Proc.devRef .tc main_arg30) = (m ((c : Thread nD τ).loc main_arg30)) :=
  (Cert.KernelIdeal.Stretch1.keep_arg30 (W2 m ρ c)).trans (w2_arg30 m ρ c)
theorem w3_b29 : ∀ q : Fin 64, W3 m ρ c (Proc.devRef .tc main_v29) (ix2 0 q) = (m ((c : Thread nD τ).loc main_arg14)) (ix1 q) :=
  fun q => (Cert.KernelIdeal.Stretch1.bias29 (W2 m ρ c) q).trans (congrFun (w2_arg14 m ρ c) (ix1 q))
theorem w3_b30 : ∀ q : Fin 64, W3 m ρ c (Proc.devRef .tc main_v30) (ix2 0 q) = (m ((c : Thread nD τ).loc main_arg12)) (ix1 q) :=
  fun q => (Cert.KernelIdeal.Stretch1.bias30 (W2 m ρ c) q).trans (congrFun (w2_arg12 m ρ c) (ix1 q))
theorem w3_b31 : ∀ q : Fin 64, W3 m ρ c (Proc.devRef .tc main_v31) (ix2 0 q) = (m ((c : Thread nD τ).loc main_arg16)) (ix1 q) :=
  fun q => (Cert.KernelIdeal.Stretch1.bias31 (W2 m ρ c) q).trans (congrFun (w2_arg16 m ρ c) (ix1 q))
theorem w3_b32 : ∀ q : Fin 64, W3 m ρ c (Proc.devRef .tc main_v32) (ix2 0 q) = (m ((c : Thread nD τ).loc main_arg18)) (ix1 q) :=
  fun q => (Cert.KernelIdeal.Stretch1.bias32 (W2 m ρ c) q).trans (congrFun (w2_arg18 m ρ c) (ix1 q))

/-! ## After layer 2's region -/

/-- Layer 2's output array is the reference's relu stage of layer 2. -/
theorem w4_out : W4 m ρ c (Proc.devRef .tc main_v33) = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W4_arr m ρ c 10).trans ((Cert.KernelIdeal.Region1.final (V3 m ρ) c).trans ?_)
  unfold Cert.KernelIdeal.Region1.whole
  show Cert.Layer.out (W3 m ρ c (Proc.devRef .tc main_v18)) (W3 m ρ c (Proc.devRef .tc main_v28)) (W3 m ρ c (Proc.devRef .tc main_arg13)) (W3 m ρ c (Proc.devRef .tc main_arg11)) (W3 m ρ c (Proc.devRef .tc main_arg15)) (W3 m ρ c (Proc.devRef .tc main_arg17))
      (fun q => W3 m ρ c (Proc.devRef .tc main_v29) (ix2 0 q)) (fun q => W3 m ρ c (Proc.devRef .tc main_v30) (ix2 0 q)) (fun q => W3 m ρ c (Proc.devRef .tc main_v31) (ix2 0 q)) (fun q => W3 m ρ c (Proc.devRef .tc main_v32) (ix2 0 q)) = _
  rw [w3_h, w3_sum, w3_arg13, w3_arg11, w3_arg15, w3_arg17]
  simp only [w3_b29 m ρ c, w3_b30 m ρ c, w3_b31 m ρ c, w3_b32 m ρ c]
  exact (Cert.ReferenceIdeal.Layers.layer2 _ _ _ _ _ _ _ _ _ _ _ _ _ _ _ _ _ _).symm
theorem w4_src : W4 m ρ c (Proc.devRef .tc main_v1) = Cert.ReferenceIdeal.Read.val_main_v1 (F := Ideal) (m ((c : Thread nD τ).loc main_arg1)) :=
  (W4_of_ne m ρ c main_v1 (by decide)).trans (w3_src m ρ c)
theorem w4_dst : W4 m ρ c (Proc.devRef .tc main_v3) = Cert.ReferenceIdeal.Read.val_main_v3 (F := Ideal) (m ((c : Thread nD τ).loc main_arg1)) :=
  (W4_of_ne m ρ c main_v3 (by decide)).trans (w3_dst m ρ c)
theorem w4_arg19 : W4 m ρ c (Proc.devRef .tc main_arg19) = (m ((c : Thread nD τ).loc main_arg19)) :=
  (W4_of_ne m ρ c main_arg19 (by decide)).trans (w3_arg19 m ρ c)
theorem w4_arg20 : W4 m ρ c (Proc.devRef .tc main_arg20) = (m ((c : Thread nD τ).loc main_arg20)) :=
  (W4_of_ne m ρ c main_arg20 (by decide)).trans (w3_arg20 m ρ c)
theorem w4_arg21 : W4 m ρ c (Proc.devRef .tc main_arg21) = (m ((c : Thread nD τ).loc main_arg21)) :=
  (W4_of_ne m ρ c main_arg21 (by decide)).trans (w3_arg21 m ρ c)
theorem w4_arg22 : W4 m ρ c (Proc.devRef .tc main_arg22) = (m ((c : Thread nD τ).loc main_arg22)) :=
  (W4_of_ne m ρ c main_arg22 (by decide)).trans (w3_arg22 m ρ c)
theorem w4_arg23 : W4 m ρ c (Proc.devRef .tc main_arg23) = (m ((c : Thread nD τ).loc main_arg23)) :=
  (W4_of_ne m ρ c main_arg23 (by decide)).trans (w3_arg23 m ρ c)
theorem w4_arg24 : W4 m ρ c (Proc.devRef .tc main_arg24) = (m ((c : Thread nD τ).loc main_arg24)) :=
  (W4_of_ne m ρ c main_arg24 (by decide)).trans (w3_arg24 m ρ c)
theorem w4_arg25 : W4 m ρ c (Proc.devRef .tc main_arg25) = (m ((c : Thread nD τ).loc main_arg25)) :=
  (W4_of_ne m ρ c main_arg25 (by decide)).trans (w3_arg25 m ρ c)
theorem w4_arg26 : W4 m ρ c (Proc.devRef .tc main_arg26) = (m ((c : Thread nD τ).loc main_arg26)) :=
  (W4_of_ne m ρ c main_arg26 (by decide)).trans (w3_arg26 m ρ c)
theorem w4_arg2 : W4 m ρ c (Proc.devRef .tc main_arg2) = (m ((c : Thread nD τ).loc main_arg2)) :=
  (W4_of_ne m ρ c main_arg2 (by decide)).trans (w3_arg2 m ρ c)
theorem w4_arg27 : W4 m ρ c (Proc.devRef .tc main_arg27) = (m ((c : Thread nD τ).loc main_arg27)) :=
  (W4_of_ne m ρ c main_arg27 (by decide)).trans (w3_arg27 m ρ c)
theorem w4_arg28 : W4 m ρ c (Proc.devRef .tc main_arg28) = (m ((c : Thread nD τ).loc main_arg28)) :=
  (W4_of_ne m ρ c main_arg28 (by decide)).trans (w3_arg28 m ρ c)
theorem w4_arg29 : W4 m ρ c (Proc.devRef .tc main_arg29) = (m ((c : Thread nD τ).loc main_arg29)) :=
  (W4_of_ne m ρ c main_arg29 (by decide)).trans (w3_arg29 m ρ c)
theorem w4_arg30 : W4 m ρ c (Proc.devRef .tc main_arg30) = (m ((c : Thread nD τ).loc main_arg30)) :=
  (W4_of_ne m ρ c main_arg30 (by decide)).trans (w3_arg30 m ρ c)

/-! ## After the third stretch -/

theorem w5_h : W5 m ρ c (Proc.devRef .tc main_v33) = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (Cert.KernelIdeal.Stretch2.keep_h (W4 m ρ c)).trans (w4_out m ρ c)
theorem w5_sum : W5 m ρ c (Proc.devRef .tc main_v43) = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  Cert.KernelIdeal.Stretch2.edgeSum (W4 m ρ c) _ _ _ _ _ _ _ _ _ _ _ _ _ _ _ _ _ _ (w4_out m ρ c) (w4_src m ρ c) (w4_dst m ρ c)
theorem w5_arg21 : W5 m ρ c (Proc.devRef .tc main_arg21) = (m ((c : Thread nD τ).loc main_arg21)) :=
  (Cert.KernelIdeal.Stretch2.keep_arg21 (W4 m ρ c)).trans (w4_arg21 m ρ c)
theorem w5_arg19 : W5 m ρ c (Proc.devRef .tc main_arg19) = (m ((c : Thread nD τ).loc main_arg19)) :=
  (Cert.KernelIdeal.Stretch2.keep_arg19 (W4 m ρ c)).trans (w4_arg19 m ρ c)
theorem w5_arg23 : W5 m ρ c (Proc.devRef .tc main_arg23) = (m ((c : Thread nD τ).loc main_arg23)) :=
  (Cert.KernelIdeal.Stretch2.keep_arg23 (W4 m ρ c)).trans (w4_arg23 m ρ c)
theorem w5_arg25 : W5 m ρ c (Proc.devRef .tc main_arg25) = (m ((c : Thread nD τ).loc main_arg25)) :=
  (Cert.KernelIdeal.Stretch2.keep_arg25 (W4 m ρ c)).trans (w4_arg25 m ρ c)
theorem w5_arg2 : W5 m ρ c (Proc.devRef .tc main_arg2) = (m ((c : Thread nD τ).loc main_arg2)) :=
  (Cert.KernelIdeal.Stretch2.keep_arg2 (W4 m ρ c)).trans (w4_arg2 m ρ c)
theorem w5_arg27 : W5 m ρ c (Proc.devRef .tc main_arg27) = (m ((c : Thread nD τ).loc main_arg27)) :=
  (Cert.KernelIdeal.Stretch2.keep_arg27 (W4 m ρ c)).trans (w4_arg27 m ρ c)
theorem w5_arg28 : W5 m ρ c (Proc.devRef .tc main_arg28) = (m ((c : Thread nD τ).loc main_arg28)) :=
  (Cert.KernelIdeal.Stretch2.keep_arg28 (W4 m ρ c)).trans (w4_arg28 m ρ c)
theorem w5_arg29 : W5 m ρ c (Proc.devRef .tc main_arg29) = (m ((c : Thread nD τ).loc main_arg29)) :=
  (Cert.KernelIdeal.Stretch2.keep_arg29 (W4 m ρ c)).trans (w4_arg29 m ρ c)
theorem w5_arg30 : W5 m ρ c (Proc.devRef .tc main_arg30) = (m ((c : Thread nD τ).loc main_arg30)) :=
  (Cert.KernelIdeal.Stretch2.keep_arg30 (W4 m ρ c)).trans (w4_arg30 m ρ c)
theorem w5_b44 : ∀ q : Fin 64, W5 m ρ c (Proc.devRef .tc main_v44) (ix2 0 q) = (m ((c : Thread nD τ).loc main_arg22)) (ix1 q) :=
  fun q => (Cert.KernelIdeal.Stretch2.bias44 (W4 m ρ c) q).trans (congrFun (w4_arg22 m ρ c) (ix1 q))
theorem w5_b45 : ∀ q : Fin 64, W5 m ρ c (Proc.devRef .tc main_v45) (ix2 0 q) = (m ((c : Thread nD τ).loc main_arg20)) (ix1 q) :=
  fun q => (Cert.KernelIdeal.Stretch2.bias45 (W4 m ρ c) q).trans (congrFun (w4_arg20 m ρ c) (ix1 q))
theorem w5_b46 : ∀ q : Fin 64, W5 m ρ c (Proc.devRef .tc main_v46) (ix2 0 q) = (m ((c : Thread nD τ).loc main_arg24)) (ix1 q) :=
  fun q => (Cert.KernelIdeal.Stretch2.bias46 (W4 m ρ c) q).trans (congrFun (w4_arg24 m ρ c) (ix1 q))
theorem w5_b47 : ∀ q : Fin 64, W5 m ρ c (Proc.devRef .tc main_v47) (ix2 0 q) = (m ((c : Thread nD τ).loc main_arg26)) (ix1 q) :=
  fun q => (Cert.KernelIdeal.Stretch2.bias47 (W4 m ρ c) q).trans (congrFun (w4_arg26 m ρ c) (ix1 q))

/-! ## After layer 3's region -/

/-- Layer 3's output array is the reference's relu stage of layer 3. -/
theorem w6_out : W6 m ρ c (Proc.devRef .tc main_v48) = Cert.ReferenceIdeal.Read.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (W6_arr m ρ c 10).trans ((Cert.KernelIdeal.Region2.final (V5 m ρ) c).trans ?_)
  unfold Cert.KernelIdeal.Region2.whole
  show Cert.Layer.out (W5 m ρ c (Proc.devRef .tc main_v33)) (W5 m ρ c (Proc.devRef .tc main_v43)) (W5 m ρ c (Proc.devRef .tc main_arg21)) (W5 m ρ c (Proc.devRef .tc main_arg19)) (W5 m ρ c (Proc.devRef .tc main_arg23)) (W5 m ρ c (Proc.devRef .tc main_arg25))
      (fun q => W5 m ρ c (Proc.devRef .tc main_v44) (ix2 0 q)) (fun q => W5 m ρ c (Proc.devRef .tc main_v45) (ix2 0 q)) (fun q => W5 m ρ c (Proc.devRef .tc main_v46) (ix2 0 q)) (fun q => W5 m ρ c (Proc.devRef .tc main_v47) (ix2 0 q)) = _
  rw [w5_h, w5_sum, w5_arg21, w5_arg19, w5_arg23, w5_arg25]
  simp only [w5_b44 m ρ c, w5_b45 m ρ c, w5_b46 m ρ c, w5_b47 m ρ c]
  exact (Cert.ReferenceIdeal.Layers.layer3 _ _ _ _ _ _ _ _ _ _ _ _ _ _ _ _ _ _ _ _ _ _ _ _ _ _).symm
theorem w6_arg2 : W6 m ρ c (Proc.devRef .tc main_arg2) = (m ((c : Thread nD τ).loc main_arg2)) :=
  (W6_of_ne m ρ c main_arg2 (by decide)).trans (w5_arg2 m ρ c)
theorem w6_arg27 : W6 m ρ c (Proc.devRef .tc main_arg27) = (m ((c : Thread nD τ).loc main_arg27)) :=
  (W6_of_ne m ρ c main_arg27 (by decide)).trans (w5_arg27 m ρ c)
theorem w6_arg28 : W6 m ρ c (Proc.devRef .tc main_arg28) = (m ((c : Thread nD τ).loc main_arg28)) :=
  (W6_of_ne m ρ c main_arg28 (by decide)).trans (w5_arg28 m ρ c)
theorem w6_arg29 : W6 m ρ c (Proc.devRef .tc main_arg29) = (m ((c : Thread nD τ).loc main_arg29)) :=
  (W6_of_ne m ρ c main_arg29 (by decide)).trans (w5_arg29 m ρ c)
theorem w6_arg30 : W6 m ρ c (Proc.devRef .tc main_arg30) = (m ((c : Thread nD τ).loc main_arg30)) :=
  (W6_of_ne m ρ c main_arg30 (by decide)).trans (w5_arg30 m ρ c)

/-! ## The result -/

/-- The kernel program's result buffer at the end of the fold is the reference's result stage of the launch arrays. -/
theorem result : W7 m ρ c (Proc.devRef .tc main_v67) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  refine (Cert.KernelIdeal.Stretch3.result (W6 m ρ c) _ _ _ _ _ _ _ _ _ _ _ _ _ _ _ _ _ _ _ _ _ _ _ _ _ _ (w6_out m ρ c)).trans ?_
  rw [w6_arg2, w6_arg27, w6_arg28, w6_arg29, w6_arg30]

end Cert.KernelIdeal.Fold

end
-- ==== Proof.lean ====
/-
  The kernel and the reference compute the same network, exactly, over the extended reals.

  The network is three layers followed by mean pooling over graphs and two dense layers.  A layer sends node
  features `h` (100000 rows of 64) to `max ((h·Wa + ba) + (s·Wc + bc) + (h·Wb + bb) * (h·Wd + bd), 0)`, where `s` is `h`
  summed over incoming edges.  The reference computes every layer with whole-array host operations.  The kernel
  program computes the edge sums, the pooling and the dense layers with the SAME host operations, and each layer's
  products, sums and clip in a kernel region that walks the rows in 25 blocks of 4000.

  An entry of a layer depends on one row of `h` and of `s` only, so a block of rows of the layer is the layer of that
  block of rows, and the 25 blocks tile the array: after a region its output array is the layer of the arrays it was
  entered with (`Proof/Region0–2`, over `Proof/Payload` and `Proof/Layer`).  The reference's relu stage of each layer,
  read entry by entry, is that same function (`Proof/RefLayers`).  The host operations both programs share — the
  gather and scatter-add of the edge sums, and the closing stretch — are carried as the reference's own stages and
  never opened (`Proof/Stretch0–3`).  Walking the kernel program's boundary fold from the launch memory to its last
  stage (`Proof/Fold`, over the run of `Proof/KernelRun`) the result buffer is the reference's result stage of the
  same argument arrays.  Sums and products are never regrouped, so finiteness of the inputs is not used.

  The three frames are the generated ones (the reference's is its generated run with the result dropped); the
  idealized kernel is the printed kernel with no rewrite applied, so `preserves` asks nothing.
-/
import proofs.«150598_j2181843387146_1_alg».proof.Defs
import proofs.«150598_j2181843387146_1_alg».proof.Proof.Gen.Kernel
import proofs.«150598_j2181843387146_1_alg».proof.Proof.Gen.Kernel.Skeleton
import proofs.«150598_j2181843387146_1_alg».proof.Proof.Gen.Kernel.Launch
import proofs.«150598_j2181843387146_1_alg».proof.Proof.Gen.Kernel.Points
import proofs.«150598_j2181843387146_1_alg».proof.Proof.Gen.Kernel.Frame
import proofs.«150598_j2181843387146_1_alg».proof.Proof.Gen.KernelIdeal
import proofs.«150598_j2181843387146_1_alg».proof.Proof.Gen.KernelIdeal.Skeleton
import proofs.«150598_j2181843387146_1_alg».proof.Proof.Gen.KernelIdeal.Launch
import proofs.«150598_j2181843387146_1_alg».proof.Proof.Gen.KernelIdeal.Points
import proofs.«150598_j2181843387146_1_alg».proof.Proof.Gen.KernelIdeal.Frame
import proofs.«150598_j2181843387146_1_alg».proof.Proof.Gen.ReferenceIdeal
import proofs.«150598_j2181843387146_1_alg».proof.Proof.Gen.Pre_finite_inputs
import proofs.«150598_j2181843387146_1_alg».proof.Proof.Gen.ReferenceIdeal.Run
import proofs.«150598_j2181843387146_1_alg».proof.Proof.Gen.ReferenceIdeal.Read
import proofs.«150598_j2181843387146_1_alg».proof.Proof.KernelRun
import proofs.«150598_j2181843387146_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 8000000 in
/-- From memories agreeing on the arguments both programs end, and the reference's result is the kernel
    program's: the last stage of the kernel program's boundary fold at its result buffer. -/
theorem algebraic : Cert.algebraic_KernelIdeal_ReferenceIdeal := by
  intro m ρ m' ρ' _ hagree
  refine ⟨fun c => Cert.KernelIdeal.Gen.W7 m ρ c (Proc.devRef .tc Cert.KernelIdeal.main_v67), ?_, ?_⟩
  · refine (θ_run Cert.KernelIdeal.defs _ _).mono (fun r h c => ?_) (Cert.KernelIdeal.Whole.run_all (F := Ideal) m ρ)
    exact ⟨h c _ (Cert.KernelIdeal.Gen.mem_uc Cert.KernelIdeal.main_v67 (by decide)),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c),
      (h c _ (Cert.KernelIdeal.Gen.mem_uc Cert.KernelIdeal.main_arg16 (by decide))).trans (Cert.KernelIdeal.Gen.W7_main_arg16 m ρ c),
      (h c _ (Cert.KernelIdeal.Gen.mem_uc Cert.KernelIdeal.main_arg17 (by decide))).trans (Cert.KernelIdeal.Gen.W7_main_arg17 m ρ c),
      (h c _ (Cert.KernelIdeal.Gen.mem_uc Cert.KernelIdeal.main_arg18 (by decide))).trans (Cert.KernelIdeal.Gen.W7_main_arg18 m ρ c),
      (h c _ (Cert.KernelIdeal.Gen.mem_uc Cert.KernelIdeal.main_arg19 (by decide))).trans (Cert.KernelIdeal.Gen.W7_main_arg19 m ρ c),
      (h c _ (Cert.KernelIdeal.Gen.mem_uc Cert.KernelIdeal.main_arg20 (by decide))).trans (Cert.KernelIdeal.Gen.W7_main_arg20 m ρ c),
      (h c _ (Cert.KernelIdeal.Gen.mem_uc Cert.KernelIdeal.main_arg21 (by decide))).trans (Cert.KernelIdeal.Gen.W7_main_arg21 m ρ c),
      (h c _ (Cert.KernelIdeal.Gen.mem_uc Cert.KernelIdeal.main_arg22 (by decide))).trans (Cert.KernelIdeal.Gen.W7_main_arg22 m ρ c),
      (h c _ (Cert.KernelIdeal.Gen.mem_uc Cert.KernelIdeal.main_arg23 (by decide))).trans (Cert.KernelIdeal.Gen.W7_main_arg23 m ρ c),
      (h c _ (Cert.KernelIdeal.Gen.mem_uc Cert.KernelIdeal.main_arg24 (by decide))).trans (Cert.KernelIdeal.Gen.W7_main_arg24 m ρ c),
      (h c _ (Cert.KernelIdeal.Gen.mem_uc Cert.KernelIdeal.main_arg25 (by decide))).trans (Cert.KernelIdeal.Gen.W7_main_arg25 m ρ c),
      (h c _ (Cert.KernelIdeal.Gen.mem_uc Cert.KernelIdeal.main_arg26 (by decide))).trans (Cert.KernelIdeal.Gen.W7_main_arg26 m ρ c),
      (h c _ (Cert.KernelIdeal.Gen.mem_uc Cert.KernelIdeal.main_arg27 (by decide))).trans (Cert.KernelIdeal.Gen.W7_main_arg27 m ρ c),
      (h c _ (Cert.KernelIdeal.Gen.mem_uc Cert.KernelIdeal.main_arg28 (by decide))).trans (Cert.KernelIdeal.Gen.W7_main_arg28 m ρ c),
      (h c _ (Cert.KernelIdeal.Gen.mem_uc Cert.KernelIdeal.main_arg29 (by decide))).trans (Cert.KernelIdeal.Gen.W7_main_arg29 m ρ c),
      (h c _ (Cert.KernelIdeal.Gen.mem_uc Cert.KernelIdeal.main_arg30 (by decide))).trans (Cert.KernelIdeal.Gen.W7_main_arg30 m ρ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30⟩ := hagree c
    rw [Cert.ReferenceIdeal.Read.val_main_v112_eq, h0, h1, h2, h3, h4, h5, h6, h7, h8, h9, h10, h11, h12, h13, h14, h15, h16, h17, h18, h19, h20, h21, h22, h23, h24, h25, h26, h27, h28, h29, h30]
    exact (Cert.KernelIdeal.Fold.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
